-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x16x2048x2048 : Shape := ⟨4, ![2, 16, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S2x16x2048x2048 32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x16x2048x2048 : Shape := ⟨4, ![2, 16, 2048, 2048]⟩
abbrev S32x2048x64 : Shape := ⟨3, ![32, 2048, 64]⟩
abbrev S32x2048x2048 : Shape := ⟨3, ![32, 2048, 2048]⟩
abbrev S1x256x64 : Shape := ⟨3, ![1, 256, 64]⟩
abbrev S1x2048x64 : Shape := ⟨3, ![1, 2048, 64]⟩
abbrev S1x256x2048 : Shape := ⟨3, ![1, 256, 2048]⟩
abbrev S2048x64 : Shape := ⟨2, ![2048, 64]⟩
abbrev S256x64 : Shape := ⟨2, ![256, 64]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 14
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .i32⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S32x2048x2048, .i32⟩
  | .hbm, ⟨8, _⟩ => ⟨S32x2048x64, .f32⟩
  | .hbm, ⟨9, _⟩ => ⟨S32x2048x2048, .f32⟩
  | .hbm, ⟨10, _⟩ => ⟨S2x16x2048x64, .f32⟩
  | .hbm, ⟨11, _⟩ => ⟨S2x16x2048x2048, .f32⟩
  | .local _ .vmem, ⟨0, _⟩ => ⟨S1x256x64, .f32⟩
  | .local _ .vmem, ⟨1, _⟩ => ⟨S1x256x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x256x2048, .i32⟩
  | .local _ .vmem, ⟨7, _⟩ => ⟨S1x256x2048, .i32⟩
  | .local _ .vmem, ⟨8, _⟩ => ⟨S1x256x64, .f32⟩
  | .local _ .vmem, ⟨9, _⟩ => ⟨S1x256x64, .f32⟩
  | .local _ .vmem, ⟨10, _⟩ => ⟨S1x256x2048, .f32⟩
  | .local _ .vmem, ⟨11, _⟩ => ⟨S1x256x2048, .f32⟩
  | .local _ .vmem, ⟨12, _⟩ => ⟨S2048x64, .bf16⟩
  | .local _ .vmem, ⟨13, _⟩ => ⟨S2048x64, .bf16⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S2x16x2048x64_S32x2048x64 : S2x16x2048x64.ShapeCasts S32x2048x64
  shapeCasts_S2x16x2048x2048_S32x2048x2048 : S2x16x2048x2048.ShapeCasts S32x2048x2048
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S256 : S256x2048.Reduces [1] S256
  shapeCasts_S256_S256x1 : S256.ShapeCasts S256x1
  broadcasts_S256x1_S256x2048 : S256x1.Broadcasts S256x2048
  shapeCasts_S256x2048_S1x256x2048 : S256x2048.ShapeCasts S1x256x2048
  shapeCasts_S256x64_S1x256x64 : S256x64.ShapeCasts S1x256x64
  shapeCasts_S32x2048x64_S2x16x2048x64 : S32x2048x64.ShapeCasts S2x16x2048x64
  shapeCasts_S32x2048x2048_S2x16x2048x2048 : S32x2048x2048.ShapeCasts S2x16x2048x2048
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S32x2048x64.size a
  hwx0_0 : ∀ i : grid0.Coords, EltTy.bits .f32 = 32 ∨ (Rect.block (s := S32x2048x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S32x2048x2048.size a
  hwx0_3 : ∀ i : grid0.Coords, EltTy.bits .i32 = 32 ∨ (Rect.block (s := S32x2048x2048) S1x256x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x64.size a ≤ S32x2048x64.size a
  hwx0_4 : ∀ i : grid0.Coords, EltTy.bits .f32 = 32 ∨ (Rect.block (s := S32x2048x64) S1x256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S32x2048x2048.size a
  hwx0_5 : ∀ i : grid0.Coords, EltTy.bits .f32 = 32 ∨ (Rect.block (s := S32x2048x2048) S1x256x2048.size (cc0_transform_5 i) (hinb0_5 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 31
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .i32⟩
  | .hbm, ⟨4, _⟩ => ⟨S2x16x2048x2048, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S_, .i32⟩
  | .hbm, ⟨9, _⟩ => ⟨S2x16x2048x2048, .i32⟩
  | .hbm, ⟨10, _⟩ => ⟨S2x16x2048x2048, .i1⟩
  | .hbm, ⟨11, _⟩ => ⟨S2x16x2048x2048, .i1⟩
  | .hbm, ⟨12, _⟩ => ⟨S_, .f32⟩
  | .hbm, ⟨13, _⟩ => ⟨S_, .f32⟩
  | .hbm, ⟨14, _⟩ => ⟨S2x16x2048x2048, .f32⟩
  | .hbm, ⟨15, _⟩ => ⟨S2x16x2048x2048, .f32⟩
  | .hbm, ⟨16, _⟩ => ⟨S_, .f32⟩
  | .hbm, ⟨17, _⟩ => ⟨S2x16x2048, .f32⟩
  | .hbm, ⟨18, _⟩ => ⟨S_, .f32⟩
  | .hbm, ⟨19, _⟩ => ⟨S2x16x2048, .f32⟩
  | .hbm, ⟨20, _⟩ => ⟨S2x16x2048, .f32⟩
  | .hbm, ⟨21, _⟩ => ⟨S2x16x2048x1, .f32⟩
  | .hbm, ⟨22, _⟩ => ⟨S2x16x2048x2048, .f32⟩
  | .hbm, ⟨23, _⟩ => ⟨S2x16x2048x2048, .f32⟩
  | .hbm, ⟨24, _⟩ => ⟨S2x16x2048x2048, .f32⟩
  | .hbm, ⟨25, _⟩ => ⟨S_, .f32⟩
  | .hbm, ⟨26, _⟩ => ⟨S2x16x2048, .f32⟩
  | .hbm, ⟨27, _⟩ => ⟨S2x16x2048x1, .f32⟩
  | .hbm, ⟨28, _⟩ => ⟨S2x16x2048x2048, .f32⟩
  | .hbm, ⟨29, _⟩ => ⟨S2x16x2048x2048, .f32⟩
  | .hbm, ⟨30, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Pieces.lean ====
/-
  What one run of the kernel body leaves behind, as values of what it loaded.

  The body has two cases.  At the first query tile of a (batch, head) slice it narrows the slice's key block and
  value block and stores them whole into two scratch buffers, then computes from its own stores; at the other seven
  tiles it stores nothing into the scratch buffers and computes from what they already hold.  In both cases the
  weights block is one whole-block store of the softmax payload of (query block, mask block, key scratch) and the
  context block one whole-block store of the product payload of those and the value scratch.  Each lemma reads a
  block written by one covering store back as that store's payload, the loads being reads of whole buffers.
-/
import proofs.«120132_j48335561949315_2_alg».proof.Proof.Gen.KernelIdeal.Frame
import Idealize.ShloMosaic.Lib.Pipeline.Value
import Idealize.ShloMosaic.Lib.Tactic

set_option maxRecDepth 16384

noncomputable section

namespace Cert.KernelIdeal.AttnPieces

open Idealize.ShloMosaic Idealize.ShloMosaic.TcCoe Idealize.SL.Sem Idealize.ShloMosaic.Tactic
open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later tile: the weights block is the softmax payload over the key scratch as found. -/
theorem out_B_5 (c : Dev nD) (i : grid0.Coords) (arg2 : Memref sig .tc .vmem S1x256x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x256x2048 .i32) (harg5 : arg5.IsWhole) (arg6 : Memref sig .tc .vmem S1x256x64 .f32) (harg6 : arg6.IsWhole) (arg7 : Memref sig .tc .vmem S1x256x2048 .f32) (harg7 : arg7.IsWhole) (arg8 : Memref sig .tc .vmem S2048x64 .bf16) (harg8 : arg8.IsWhole) (arg9 : Memref sig .tc .vmem S2048x64 .bf16) (harg9 : arg9.IsWhole) (hc0 : ¬cond0_0 i) (x0 : Vec F S1x256x64 .f32) (x1 : Vec F S1x2048x64 .f32) (x2 : Vec F S1x2048x64 .f32) (x3 : Vec F S1x256x2048 .i32) (xs0 : Vec F S2048x64 .bf16) (xs1 : Vec F S2048x64 .bf16) :
    out0_B_5 c i arg2 harg2 arg3 harg3 arg4 harg4 arg5 harg5 arg6 harg6 arg7 harg7 arg8 harg8 arg9 harg9 hc0 x0 x1 x2 x3 xs0 xs1 = k0_pay5 x0 x3 xs0 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 xs0 xs1)]
  unfold kernelRun0_B
  dsimp only
  rw [View.canon_unit_zero hz3]
  simp only [View.readAt_eq_ld, harg2.read_unread, harg3.read_unread, harg4.read_unread, harg5.read_unread, harg8.read_unread, harg9.read_unread, View.ld_unit_zero (S := S1x256x64) hz3, View.ld_unit_zero (S := S1x2048x64) hz3, View.ld_unit_zero (S := S1x256x2048) hz3, View.ld_unit_zero (S := S2048x64) hz2]

/-- A later tile: the context block is the product payload over both scratch buffers as found. -/
theorem out_B_4 (c : Dev nD) (i : grid0.Coords) (arg2 : Memref sig .tc .vmem S1x256x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x256x2048 .i32) (harg5 : arg5.IsWhole) (arg6 : Memref sig .tc .vmem S1x256x64 .f32) (harg6 : arg6.IsWhole) (arg7 : Memref sig .tc .vmem S1x256x2048 .f32) (harg7 : arg7.IsWhole) (arg8 : Memref sig .tc .vmem S2048x64 .bf16) (harg8 : arg8.IsWhole) (arg9 : Memref sig .tc .vmem S2048x64 .bf16) (harg9 : arg9.IsWhole) (hc0 : ¬cond0_0 i) (x0 : Vec F S1x256x64 .f32) (x1 : Vec F S1x2048x64 .f32) (x2 : Vec F S1x2048x64 .f32) (x3 : Vec F S1x256x2048 .i32) (xs0 : Vec F S2048x64 .bf16) (xs1 : Vec F S2048x64 .bf16) :
    out0_B_4 c i arg2 harg2 arg3 harg3 arg4 harg4 arg5 harg5 arg6 harg6 arg7 harg7 arg8 harg8 arg9 harg9 hc0 x0 x1 x2 x3 xs0 xs1 = k0_pay1 (k0_pay6 x0 x3 xs0 xs1) := by
  unfold out0_B_4
  rw [View.read_writes_eq_canon _ _ _ (cover0_B_4 c i arg2 harg2 arg3 harg3 arg4 harg4 arg5 harg5 arg6 harg6 arg7 harg7 arg8 harg8 arg9 harg9 hc0 x0 x1 x2 x3 xs0 xs1)]
  unfold kernelRun0_B
  dsimp only
  sl_unfold_words
  rw [View.canon_unit_zero hz3]
  simp only [View.readAt_eq_ld, harg2.read_unread, harg3.read_unread, harg4.read_unread, harg5.read_unread, harg8.read_unread, harg9.read_unread, View.ld_unit_zero (S := S1x256x64) hz3, View.ld_unit_zero (S := S1x2048x64) hz3, View.ld_unit_zero (S := S1x256x2048) hz3, View.ld_unit_zero (S := S2048x64) hz2]

/-- The first tile of a slice: the key scratch ends at the narrowed key block. -/
theorem sout_A_0 (c : Dev nD) (i : grid0.Coords) (arg2 : Memref sig .tc .vmem S1x256x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x256x2048 .i32) (harg5 : arg5.IsWhole) (arg6 : Memref sig .tc .vmem S1x256x64 .f32) (harg6 : arg6.IsWhole) (arg7 : Memref sig .tc .vmem S1x256x2048 .f32) (harg7 : arg7.IsWhole) (arg8 : Memref sig .tc .vmem S2048x64 .bf16) (harg8 : arg8.IsWhole) (arg9 : Memref sig .tc .vmem S2048x64 .bf16) (harg9 : arg9.IsWhole) (hc0 : cond0_0 i) (x0 : Vec F S1x256x64 .f32) (x1 : Vec F S1x2048x64 .f32) (x2 : Vec F S1x2048x64 .f32) (x3 : Vec F S1x256x2048 .i32) :
    sout0_A_0 c i arg2 harg2 arg3 harg3 arg4 harg4 arg5 harg5 arg6 harg6 arg7 harg7 arg8 harg8 arg9 harg9 hc0 x0 x1 x2 x3 = k0_pay2 x1 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz2]
  simp only [View.readAt_eq_ld, harg2.read_unread, harg3.read_unread, harg4.read_unread, harg5.read_unread, harg8.read_unread, harg9.read_unread, View.ld_unit_zero (S := S1x256x64) hz3, View.ld_unit_zero (S := S1x2048x64) hz3, View.ld_unit_zero (S := S1x256x2048) hz3, View.ld_unit_zero (S := S2048x64) hz2]

/-- The first tile of a slice: the value scratch ends at the narrowed value block. -/
theorem sout_A_1 (c : Dev nD) (i : grid0.Coords) (arg2 : Memref sig .tc .vmem S1x256x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x256x2048 .i32) (harg5 : arg5.IsWhole) (arg6 : Memref sig .tc .vmem S1x256x64 .f32) (harg6 : arg6.IsWhole) (arg7 : Memref sig .tc .vmem S1x256x2048 .f32) (harg7 : arg7.IsWhole) (arg8 : Memref sig .tc .vmem S2048x64 .bf16) (harg8 : arg8.IsWhole) (arg9 : Memref sig .tc .vmem S2048x64 .bf16) (harg9 : arg9.IsWhole) (hc0 : cond0_0 i) (x0 : Vec F S1x256x64 .f32) (x1 : Vec F S1x2048x64 .f32) (x2 : Vec F S1x2048x64 .f32) (x3 : Vec F S1x256x2048 .i32) :
    sout0_A_1 c i arg2 harg2 arg3 harg3 arg4 harg4 arg5 harg5 arg6 harg6 arg7 harg7 arg8 harg8 arg9 harg9 hc0 x0 x1 x2 x3 = k0_pay3 x2 := by
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz2]
  simp only [View.readAt_eq_ld, harg2.read_unread, harg3.read_unread, harg4.read_unread, harg5.read_unread, harg8.read_unread, harg9.read_unread, View.ld_unit_zero (S := S1x256x64) hz3, View.ld_unit_zero (S := S1x2048x64) hz3, View.ld_unit_zero (S := S1x256x2048) hz3, View.ld_unit_zero (S := S2048x64) hz2]

/-- The first tile of a slice: the weights block is the softmax payload over the key block just narrowed. -/
theorem out_A_5 (c : Dev nD) (i : grid0.Coords) (arg2 : Memref sig .tc .vmem S1x256x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x256x2048 .i32) (harg5 : arg5.IsWhole) (arg6 : Memref sig .tc .vmem S1x256x64 .f32) (harg6 : arg6.IsWhole) (arg7 : Memref sig .tc .vmem S1x256x2048 .f32) (harg7 : arg7.IsWhole) (arg8 : Memref sig .tc .vmem S2048x64 .bf16) (harg8 : arg8.IsWhole) (arg9 : Memref sig .tc .vmem S2048x64 .bf16) (harg9 : arg9.IsWhole) (hc0 : cond0_0 i) (x0 : Vec F S1x256x64 .f32) (x1 : Vec F S1x2048x64 .f32) (x2 : Vec F S1x2048x64 .f32) (x3 : Vec F S1x256x2048 .i32) :
    out0_A_5 c i arg2 harg2 arg3 harg3 arg4 harg4 arg5 harg5 arg6 harg6 arg7 harg7 arg8 harg8 arg9 harg9 hc0 x0 x1 x2 x3 = k0_pay5 x0 x3 (k0_pay2 x1) := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz3]
  simp only [View.readAt_eq_ld, harg2.read_unread, harg3.read_unread, harg4.read_unread, harg5.read_unread, harg8.read_unread, harg9.read_unread, View.ld_unit_zero (S := S1x256x64) hz3, View.ld_unit_zero (S := S1x2048x64) hz3, View.ld_unit_zero (S := S1x256x2048) hz3, View.ld_unit_zero (S := S2048x64) hz2, View.readCov_unit_zero (S := S2048x64) _ hz2]

/-- The first tile of a slice: the context block is the product payload over the two blocks just narrowed. -/
theorem out_A_4 (c : Dev nD) (i : grid0.Coords) (arg2 : Memref sig .tc .vmem S1x256x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x256x2048 .i32) (harg5 : arg5.IsWhole) (arg6 : Memref sig .tc .vmem S1x256x64 .f32) (harg6 : arg6.IsWhole) (arg7 : Memref sig .tc .vmem S1x256x2048 .f32) (harg7 : arg7.IsWhole) (arg8 : Memref sig .tc .vmem S2048x64 .bf16) (harg8 : arg8.IsWhole) (arg9 : Memref sig .tc .vmem S2048x64 .bf16) (harg9 : arg9.IsWhole) (hc0 : cond0_0 i) (x0 : Vec F S1x256x64 .f32) (x1 : Vec F S1x2048x64 .f32) (x2 : Vec F S1x2048x64 .f32) (x3 : Vec F S1x256x2048 .i32) :
    out0_A_4 c i arg2 harg2 arg3 harg3 arg4 harg4 arg5 harg5 arg6 harg6 arg7 harg7 arg8 harg8 arg9 harg9 hc0 x0 x1 x2 x3 = k0_pay1 (k0_pay6 x0 x3 (k0_pay2 x1) (k0_pay3 x2)) := by
  unfold out0_A_4
  rw [View.read_writes_eq_canon _ _ _ (cover0_A_4 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz3]
  simp only [View.readAt_eq_ld, harg2.read_unread, harg3.read_unread, harg4.read_unread, harg5.read_unread, harg8.read_unread, harg9.read_unread, View.ld_unit_zero (S := S1x256x64) hz3, View.ld_unit_zero (S := S1x2048x64) hz3, View.ld_unit_zero (S := S1x256x2048) hz3, View.ld_unit_zero (S := S2048x64) hz2, View.readCov_unit_zero (S := S2048x64) _ hz2]

end Cert.KernelIdeal.AttnPieces

end
-- ==== Proof.Carried.lean ====
/-
  What the two output blocks and the two carried scratch buffers hold after every grid point.

  The grid has 32 slices of 8 query tiles; point t is tile t % 8 of slice t / 8.  The key window and the value
  window take the whole [2048, 64] block of slice t / 8 whatever the tile, so their blocks do not change inside a
  slice.  Hence, by induction on the point, the key scratch after point t is the narrowed key block of point t's
  own slice and the value scratch the narrowed value block: at a slice's first tile the body has just stored
  them, at a later tile they are what the point before left, and that point is in the same slice.  It follows
  that at EVERY point the weights block is the softmax payload of the point's own query, mask and key blocks and
  the context block the product payload of those and the point's value block.
-/
import proofs.«120132_j48335561949315_2_alg».proof.Proof.Pieces
import Idealize.ShloMosaic.Lib.ValueIdx
import Idealize.ShloMosaic.Lib.Pipeline.Value

set_option maxRecDepth 16384

noncomputable section

namespace Cert.KernelIdeal.AttnCarried

open Idealize.ShloMosaic Idealize.ShloMosaic.TcCoe Idealize.SL.Sem Idealize.ShloMosaic.ValueIdx
open Cert.KernelIdeal Cert.KernelIdeal.Gen Cert.KernelIdeal.AttnPieces

variable {F : FTy → Type} [FloatOps F]
variable (m : (ℓ : Loc nD τ sig) → Buf (Elt F) ℓ)

/-- The block each window takes at point t: slice t / 8 on the leading axis; tile t % 8 on the row axis of the
    query, mask, context and weights windows, the whole row axis for keys and values; the whole last axis. -/
theorem idx_facts : ∀ t : Fin cfg0.N,
    (win0_0.index t 0 = t.val / 8 ∧ win0_0.index t 1 = t.val % 8 ∧ win0_0.index t 2 = 0)
    ∧ (win0_1.index t 0 = t.val / 8 ∧ win0_1.index t 1 = 0 ∧ win0_1.index t 2 = 0)
    ∧ (win0_2.index t 0 = t.val / 8 ∧ win0_2.index t 1 = 0 ∧ win0_2.index t 2 = 0)
    ∧ (win0_3.index t 0 = t.val / 8 ∧ win0_3.index t 1 = t.val % 8 ∧ win0_3.index t 2 = 0)
    ∧ (win0_4.index t 0 = t.val / 8 ∧ win0_4.index t 1 = t.val % 8 ∧ win0_4.index t 2 = 0)
    ∧ (win0_5.index t 0 = t.val / 8 ∧ win0_5.index t 1 = t.val % 8 ∧ win0_5.index t 2 = 0) :=
  (by decide +kernel : ∀ t : Fin grid0.N,
    (win0_0.index t 0 = t.val / 8 ∧ win0_0.index t 1 = t.val % 8 ∧ win0_0.index t 2 = 0)
    ∧ (win0_1.index t 0 = t.val / 8 ∧ win0_1.index t 1 = 0 ∧ win0_1.index t 2 = 0)
    ∧ (win0_2.index t 0 = t.val / 8 ∧ win0_2.index t 1 = 0 ∧ win0_2.index t 2 = 0)
    ∧ (win0_3.index t 0 = t.val / 8 ∧ win0_3.index t 1 = t.val % 8 ∧ win0_3.index t 2 = 0)
    ∧ (win0_4.index t 0 = t.val / 8 ∧ win0_4.index t 1 = t.val % 8 ∧ win0_4.index t 2 = 0)
    ∧ (win0_5.index t 0 = t.val / 8 ∧ win0_5.index t 1 = t.val % 8 ∧ win0_5.index t 2 = 0))

theorem N256 : cfg0.N = 256 := N_0

/-- The slice of a point. -/
def slice (t : Fin cfg0.N) : Fin 32 := ⟨t.val / 8, by have := t.isLt; have := N256; omega⟩
/-- Row r of a point's tile, as a row of the slice. -/
def trow (t : Fin cfg0.N) (r : Fin 256) : Fin 2048 := ⟨256 * (t.val % 8) + r.val, by have := r.isLt; omega⟩

/-- The query block of a point: rows 256·(t % 8) … of slice t / 8 of the query array. -/
theorem iblk0_apply (c : Dev nD) (t : Fin cfg0.N) (u : Fin 1) (r : Fin 256) (d : Fin 64) :
    (iblk m c 0 t : Vec F S1x256x64 .f32) (ix3 u r d) = V m c main_v0 (ix3 (slice t) (trow t r) d) := by
  unfold iblk
  rw [View.read_apply]
  show V m c main_v0 _ = V m c main_v0 _
  congr 1
  funext a
  apply Fin.ext
  have hu : u.val = 0 := by omega
  match a with
  | ⟨0, _⟩ => show win0_0.index t 0 * 1 + 1 * u.val = t.val / 8; rw [(idx_facts t).1.1]; omega
  | ⟨1, _⟩ => show win0_0.index t 1 * 256 + 1 * r.val = 256 * (t.val % 8) + r.val; rw [(idx_facts t).1.2.1]; omega
  | ⟨2, _⟩ => show win0_0.index t 2 * 64 + 1 * d.val = d.val; rw [(idx_facts t).1.2.2]; omega

/-- The key block of a point: the whole slice t / 8 of the key array. -/
theorem iblk1_apply (c : Dev nD) (t : Fin cfg0.N) (u : Fin 1) (k : Fin 2048) (d : Fin 64) :
    (iblk m c 1 t : Vec F S1x2048x64 .f32) (ix3 u k d) = V m c main_v1 (ix3 (slice t) k d) := by
  unfold iblk
  rw [View.read_apply]
  show V m c main_v1 _ = V m c main_v1 _
  congr 1
  funext a
  apply Fin.ext
  have hu : u.val = 0 := by omega
  match a with
  | ⟨0, _⟩ => show win0_1.index t 0 * 1 + 1 * u.val = t.val / 8; rw [(idx_facts t).2.1.1]; omega
  | ⟨1, _⟩ => show win0_1.index t 1 * 2048 + 1 * k.val = k.val; rw [(idx_facts t).2.1.2.1]; omega
  | ⟨2, _⟩ => show win0_1.index t 2 * 64 + 1 * d.val = d.val; rw [(idx_facts t).2.1.2.2]; omega

/-- The value block of a point: the whole slice t / 8 of the value array. -/
theorem iblk2_apply (c : Dev nD) (t : Fin cfg0.N) (u : Fin 1) (k : Fin 2048) (d : Fin 64) :
    (iblk m c 2 t : Vec F S1x2048x64 .f32) (ix3 u k d) = V m c main_v2 (ix3 (slice t) k d) := by
  unfold iblk
  rw [View.read_apply]
  show V m c main_v2 _ = V m c main_v2 _
  congr 1
  funext a
  apply Fin.ext
  have hu : u.val = 0 := by omega
  match a with
  | ⟨0, _⟩ => show win0_2.index t 0 * 1 + 1 * u.val = t.val / 8; rw [(idx_facts t).2.2.1.1]; omega
  | ⟨1, _⟩ => show win0_2.index t 1 * 2048 + 1 * k.val = k.val; rw [(idx_facts t).2.2.1.2.1]; omega
  | ⟨2, _⟩ => show win0_2.index t 2 * 64 + 1 * d.val = d.val; rw [(idx_facts t).2.2.1.2.2]; omega

/-- The mask block of a point: rows 256·(t % 8) … of slice t / 8 of the mask array. -/
theorem iblk3_apply (c : Dev nD) (t : Fin cfg0.N) (u : Fin 1) (r : Fin 256) (k : Fin 2048) :
    (iblk m c 3 t : Vec F S1x256x2048 .i32) (ix3 u r k) = V m c main_v3 (ix3 (slice t) (trow t r) k) := by
  unfold iblk
  rw [View.read_apply]
  show V m c main_v3 _ = V m c main_v3 _
  congr 1
  funext a
  apply Fin.ext
  have hu : u.val = 0 := by omega
  match a with
  | ⟨0, _⟩ => show win0_3.index t 0 * 1 + 1 * u.val = t.val / 8; rw [(idx_facts t).2.2.2.1.1]; omega
  | ⟨1, _⟩ => show win0_3.index t 1 * 256 + 1 * r.val = 256 * (t.val % 8) + r.val; rw [(idx_facts t).2.2.2.1.2.1]; omega
  | ⟨2, _⟩ => show win0_3.index t 2 * 2048 + 1 * k.val = k.val; rw [(idx_facts t).2.2.2.1.2.2]; omega

/-- Two points of one slice take the same key block. -/
theorem iblk1_const (c : Dev nD) (t t' : Fin cfg0.N) (h : t.val / 8 = t'.val / 8) :
    @Eq (Vec F S1x2048x64 .f32) (iblk m c 1 t) (iblk m c 1 t') := by
  refine funext fun (j : S1x2048x64.Idx) => ?_
  obtain ⟨u, k, d, rfl⟩ : ∃ (u : Fin 1) (k : Fin 2048) (d : Fin 64), j = ix3 u k d := ⟨j 0, j 1, j 2, eq_ix3 j⟩
  exact (iblk1_apply m c t u k d).trans
    ((congrArg (fun s => V m c main_v1 (ix3 s k d)) (Fin.ext h : slice t = slice t')).trans (iblk1_apply m c t' u k d).symm)

/-- Two points of one slice take the same value block. -/
theorem iblk2_const (c : Dev nD) (t t' : Fin cfg0.N) (h : t.val / 8 = t'.val / 8) :
    @Eq (Vec F S1x2048x64 .f32) (iblk m c 2 t) (iblk m c 2 t') := by
  refine funext fun (j : S1x2048x64.Idx) => ?_
  obtain ⟨u, k, d, rfl⟩ : ∃ (u : Fin 1) (k : Fin 2048) (d : Fin 64), j = ix3 u k d := ⟨j 0, j 1, j 2, eq_ix3 j⟩
  exact (iblk2_apply m c t u k d).trans
    ((congrArg (fun s => V m c main_v2 (ix3 s k d)) (Fin.ext h : slice t = slice t')).trans (iblk2_apply m c t' u k d).symm)

/-- After every point the key scratch holds the narrowed key block of the point's slice and the value scratch the
    narrowed value block. -/
theorem scratch_eq (c : Dev nD) : ∀ (n : ℕ) (h : n < cfg0.N),
    (outsAt0 m c n h).2.2.1 = k0_pay2 (iblk m c 1 ⟨n, h⟩) ∧ (outsAt0 m c n h).2.2.2 = k0_pay3 (iblk m c 2 ⟨n, h⟩)
  | 0, h => by
    rw [outsAt0_A m c ⟨0, h⟩ rfl]
    dsimp only
    exact ⟨sout_A_0 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩) (iblk m c 3 ⟨0, h⟩),
      sout_A_1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩) (iblk m c 3 ⟨0, h⟩)⟩
  | n + 1, h => by
    by_cases h0 : (n + 1) % 8 = 0
    · rw [outsAt0_A m c ⟨n + 1, h⟩ h0]
      dsimp only
      exact ⟨sout_A_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩),
        sout_A_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩)⟩
    · have ih := scratch_eq c n (Nat.lt_of_succ_lt h)
      have e1 := iblk1_const m c ⟨n + 1, h⟩ ⟨n, Nat.lt_of_succ_lt h⟩ (by show (n + 1) / 8 = n / 8; omega)
      have e2 := iblk2_const m c ⟨n + 1, h⟩ ⟨n, Nat.lt_of_succ_lt h⟩ (by show (n + 1) / 8 = n / 8; omega)
      rw [outsAt0_B m c ⟨n + 1, h⟩ h0]
      dsimp only
      unfold sout0_B_0 sout0_B_1
      show (outsAt0 m c n _).2.2.1 = _ ∧ (outsAt0 m c n _).2.2.2 = _
      rw [e1, e2]
      exact ih

/-- At every point the context block is the product payload, and the weights block the softmax payload, of the
    point's own four input blocks. -/
theorem outs_eq (c : Dev nD) (t : Fin cfg0.N) :
    (outsAt0 m c t.val t.isLt).1
        = k0_pay1 (k0_pay6 (iblk m c 0 t) (iblk m c 3 t) (k0_pay2 (iblk m c 1 t)) (k0_pay3 (iblk m c 2 t)))
    ∧ (outsAt0 m c t.val t.isLt).2.1 = k0_pay5 (iblk m c 0 t) (iblk m c 3 t) (k0_pay2 (iblk m c 1 t)) := by
  by_cases h0 : t.val % 8 = 0
  · rw [outsAt0_A m c t h0]
    dsimp only
    exact ⟨out_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t),
      out_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)⟩
  · obtain ⟨n, hn⟩ := t
    cases n with
    | zero => exact absurd (Nat.zero_mod _) h0
    | succ n =>
      have ih := scratch_eq m c n (Nat.lt_of_succ_lt hn)
      have e1 := iblk1_const m c ⟨n + 1, hn⟩ ⟨n, Nat.lt_of_succ_lt hn⟩ (by show (n + 1) / 8 = n / 8; dsimp only at h0; omega)
      have e2 := iblk2_const m c ⟨n + 1, hn⟩ ⟨n, Nat.lt_of_succ_lt hn⟩ (by show (n + 1) / 8 = n / 8; dsimp only at h0; omega)
      rw [outsAt0_B m c ⟨n + 1, hn⟩ h0]
      dsimp only
      show out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) _ (iblk m c 0 ⟨n + 1, hn⟩) (iblk m c 1 ⟨n + 1, hn⟩) (iblk m c 2 ⟨n + 1, hn⟩) (iblk m c 3 ⟨n + 1, hn⟩) (outsAt0 m c n _).2.2.1 (outsAt0 m c n _).2.2.2 = _
        ∧ out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) _ (iblk m c 0 ⟨n + 1, hn⟩) (iblk m c 1 ⟨n + 1, hn⟩) (iblk m c 2 ⟨n + 1, hn⟩) (iblk m c 3 ⟨n + 1, hn⟩) (outsAt0 m c n _).2.2.1 (outsAt0 m c n _).2.2.2 = _
      rw [ih.1, ih.2, ← e1, ← e2]
      exact ⟨out_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) _ (iblk m c 0 ⟨n + 1, hn⟩) (iblk m c 1 ⟨n + 1, hn⟩) (iblk m c 2 ⟨n + 1, hn⟩) (iblk m c 3 ⟨n + 1, hn⟩) _ _, out_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) _ (iblk m c 0 ⟨n + 1, hn⟩) (iblk m c 1 ⟨n + 1, hn⟩) (iblk m c 2 ⟨n + 1, hn⟩) (iblk m c 3 ⟨n + 1, hn⟩) _ _⟩

end Cert.KernelIdeal.AttnCarried

end
-- ==== Proof.Cover.lean ====
/-
  The output blocks tile their arrays.

  Point t writes back block (t / 8, t % 8, 0) of the context array, of block shape [1, 256, 64], and the same block
  of the weights array, of block shape [1, 256, 2048]: entry (u, r, x) of the block is entry
  (t / 8, 256·(t % 8) + r, x) of the array.  Conversely entry (s, y, x) of either array lies in the block of
  point 8·s + y / 256, so the 256 blocks cover each array.
-/
import proofs.«120132_j48335561949315_2_alg».proof.Proof.Carried

set_option maxRecDepth 16384

noncomputable section

namespace Cert.KernelIdeal.AttnCover

open Idealize.ShloMosaic Idealize.ShloMosaic.TcCoe Idealize.SL.Sem Idealize.ShloMosaic.ValueIdx
open Cert.KernelIdeal Cert.KernelIdeal.Gen Cert.KernelIdeal.AttnCarried

/-- Entry (u, r, d) of point t's context block is entry (t / 8, 256·(t % 8) + r, d) of the context array. -/
theorem emb4 (t : Fin cfg0.N) (u : Fin 1) (r : Fin 256) (d : Fin 64) :
    ((cfg0.win 4).blk t).view.emb (ix3 u r d) = ix3 (slice t) (trow t r) d := by
  funext a
  apply Fin.ext
  have hu : u.val = 0 := by omega
  match a with
  | ⟨0, _⟩ => show win0_4.index t 0 * 1 + 1 * u.val = t.val / 8; rw [(idx_facts t).2.2.2.2.1.1]; omega
  | ⟨1, _⟩ => show win0_4.index t 1 * 256 + 1 * r.val = 256 * (t.val % 8) + r.val; rw [(idx_facts t).2.2.2.2.1.2.1]; omega
  | ⟨2, _⟩ => show win0_4.index t 2 * 64 + 1 * d.val = d.val; rw [(idx_facts t).2.2.2.2.1.2.2]; omega

/-- Entry (u, r, k) of point t's weights block is entry (t / 8, 256·(t % 8) + r, k) of the weights array. -/
theorem emb5 (t : Fin cfg0.N) (u : Fin 1) (r : Fin 256) (k : Fin 2048) :
    ((cfg0.win 5).blk t).view.emb (ix3 u r k) = ix3 (slice t) (trow t r) k := by
  funext a
  apply Fin.ext
  have hu : u.val = 0 := by omega
  match a with
  | ⟨0, _⟩ => show win0_5.index t 0 * 1 + 1 * u.val = t.val / 8; rw [(idx_facts t).2.2.2.2.2.1]; omega
  | ⟨1, _⟩ => show win0_5.index t 1 * 256 + 1 * r.val = 256 * (t.val % 8) + r.val; rw [(idx_facts t).2.2.2.2.2.2.1]; omega
  | ⟨2, _⟩ => show win0_5.index t 2 * 2048 + 1 * k.val = k.val; rw [(idx_facts t).2.2.2.2.2.2.2]; omega

/-- An index of the context array is in point t's block iff each coordinate is in the block's range. -/
theorem mem_blk4 (t : Fin cfg0.N) (i : S32x2048x64.Idx) :
    i ∈ ((cfg0.win 4).blk t).view.set ↔ ∀ a : Fin 3, win0_4.index t a * S1x256x64.size a ≤ (i a).val ∧ (i a).val < win0_4.index t a * S1x256x64.size a + S1x256x64.size a := by
  show i ∈ ((View.whole main_v4_0).slice (win0_4.rect t)).set ↔ _
  rw [View.set_slice_whole, Rect.mem_set_unit]
  exact Iff.rfl

/-- An index of the weights array is in point t's block iff each coordinate is in the block's range. -/
theorem mem_blk5 (t : Fin cfg0.N) (i : S32x2048x2048.Idx) :
    i ∈ ((cfg0.win 5).blk t).view.set ↔ ∀ a : Fin 3, win0_5.index t a * S1x256x2048.size a ≤ (i a).val ∧ (i a).val < win0_5.index t a * S1x256x2048.size a + S1x256x2048.size a := by
  show i ∈ ((View.whole main_v4_1).slice (win0_5.rect t)).set ↔ _
  rw [View.set_slice_whole, Rect.mem_set_unit]
  exact Iff.rfl

/-- Every entry of the context array is in the block of the point of its slice and tile. -/
theorem cover4 (i : S32x2048x64.Idx) :
    ∃ t : Fin cfg0.N, (cfg0.win 4).flush t = true ∧ i ∈ ((cfg0.win 4).blk t).view.set := by
  have h0 : (i 0).val < 32 := (i 0).isLt
  have h1 : (i 1).val < 2048 := (i 1).isLt
  have h2 : (i 2).val < 64 := (i 2).isLt
  have hN := N256
  let t : Fin cfg0.N := ⟨8 * (i 0).val + (i 1).val / 256, by omega⟩
  have ht : t.val = 8 * (i 0).val + (i 1).val / 256 := rfl
  refine ⟨t, flush0_4 t, ?_⟩
  rw [mem_blk4]
  obtain ⟨e0, e1, e2⟩ := (idx_facts t).2.2.2.2.1
  intro a
  match a with
  | ⟨0, _⟩ => show win0_4.index t 0 * 1 ≤ (i 0).val ∧ (i 0).val < win0_4.index t 0 * 1 + 1; rw [e0, ht]; omega
  | ⟨1, _⟩ => show win0_4.index t 1 * 256 ≤ (i 1).val ∧ (i 1).val < win0_4.index t 1 * 256 + 256; rw [e1, ht]; omega
  | ⟨2, _⟩ => show win0_4.index t 2 * 64 ≤ (i 2).val ∧ (i 2).val < win0_4.index t 2 * 64 + 64; rw [e2]; omega

/-- Every entry of the weights array is in the block of the point of its slice and tile. -/
theorem cover5 (i : S32x2048x2048.Idx) :
    ∃ t : Fin cfg0.N, (cfg0.win 5).flush t = true ∧ i ∈ ((cfg0.win 5).blk t).view.set := by
  have h0 : (i 0).val < 32 := (i 0).isLt
  have h1 : (i 1).val < 2048 := (i 1).isLt
  have h2 : (i 2).val < 2048 := (i 2).isLt
  have hN := N256
  let t : Fin cfg0.N := ⟨8 * (i 0).val + (i 1).val / 256, by omega⟩
  have ht : t.val = 8 * (i 0).val + (i 1).val / 256 := rfl
  refine ⟨t, flush0_5 t, ?_⟩
  rw [mem_blk5]
  obtain ⟨e0, e1, e2⟩ := (idx_facts t).2.2.2.2.2
  intro a
  match a with
  | ⟨0, _⟩ => show win0_5.index t 0 * 1 ≤ (i 0).val ∧ (i 0).val < win0_5.index t 0 * 1 + 1; rw [e0, ht]; omega
  | ⟨1, _⟩ => show win0_5.index t 1 * 256 ≤ (i 1).val ∧ (i 1).val < win0_5.index t 1 * 256 + 256; rw [e1, ht]; omega
  | ⟨2, _⟩ => show win0_5.index t 2 * 2048 ≤ (i 2).val ∧ (i 2).val < win0_5.index t 2 * 2048 + 2048; rw [e2]; omega

end Cert.KernelIdeal.AttnCover

end
-- ==== Proof.HostEnds.lean ====
/-
  The host operations around the region.

  Before the region four reshapes merge the batch and head axes of the four arguments, so the region finds, in the
  arrays its windows read, the arguments re-laid as [32, 2048, ·].  After it two reshapes split the leading axis of
  the two arrays the region wrote, and those are the program's results.
-/
import proofs.«120132_j48335561949315_2_alg».proof.Proof.Gen.KernelIdeal.Frame
import Idealize.ShloMosaic.Lib.StableHlo.Run
import Idealize.ShloMosaic.Lib.Pipeline.Value
import Idealize.ShloMosaic.Lib.Tactic

set_option maxRecDepth 16384

noncomputable section

namespace Cert.KernelIdeal.AttnHost

open Idealize.ShloMosaic Idealize.ShloMosaic.TcCoe Idealize.SL.Sem Idealize.ShloMosaic.StableHlo
open Idealize.ShloMosaic.Pipeline (Dat)
open Cert.KernelIdeal Cert.KernelIdeal.Gen

variable {F : FTy → Type} [FloatOps F]
variable (m : (ℓ : Loc nD τ sig) → Buf (Elt F) ℓ)

/-- The query window's array: the first argument with batch and head merged. -/
theorem V_v0 (c : Dev nD) :
    @Eq (S32x2048x64.Idx → Elt F .f32) (V m c main_v0)
      (shapeCast S32x2048x64 (m ((c : Thread nD τ).loc main_arg0)) shapeCasts_S2x16x2048x64_S32x2048x64) := by
  show StableHlo.after hostOps0 (fun b => m (c, b)) (Proc.devRef .tc main_v0) = _
  after_results
  rfl

/-- The key window's array: the second argument with batch and head merged. -/
theorem V_v1 (c : Dev nD) :
    @Eq (S32x2048x64.Idx → Elt F .f32) (V m c main_v1)
      (shapeCast S32x2048x64 (m ((c : Thread nD τ).loc main_arg1)) shapeCasts_S2x16x2048x64_S32x2048x64) := by
  show StableHlo.after hostOps0 (fun b => m (c, b)) (Proc.devRef .tc main_v1) = _
  after_results
  rfl

/-- The value window's array: the third argument with batch and head merged. -/
theorem V_v2 (c : Dev nD) :
    @Eq (S32x2048x64.Idx → Elt F .f32) (V m c main_v2)
      (shapeCast S32x2048x64 (m ((c : Thread nD τ).loc main_arg2)) shapeCasts_S2x16x2048x64_S32x2048x64) := by
  show StableHlo.after hostOps0 (fun b => m (c, b)) (Proc.devRef .tc main_v2) = _
  after_results
  rfl

/-- The mask window's array: the fourth argument with batch and head merged. -/
theorem V_v3 (c : Dev nD) :
    @Eq (S32x2048x2048.Idx → Elt F .i32) (V m c main_v3)
      (shapeCast S32x2048x2048 (m ((c : Thread nD τ).loc main_arg3)) shapeCasts_S2x16x2048x2048_S32x2048x2048) := by
  show StableHlo.after hostOps0 (fun b => m (c, b)) (Proc.devRef .tc main_v3) = _
  after_results
  rfl

/-- The first result: the context array the region wrote, its leading axis split. -/
theorem tail_v5 (dats : (p : Fin 1) → (c : Dev nD) → Dat τ (Elt F) Unit ℕ (UR sig nD τ) ℕ (cfgs p) c) (c : Dev nD) :
    @Eq (S2x16x2048x64.Idx → Elt F .f32) (Pipeline.afterTail₀ cfgs dats 0 (V0 m) [hostOps1] c main_v5)
      (shapeCast S2x16x2048x64 ((dats 0 c).arrAt 4 cfg0.N) shapeCasts_S32x2048x64_S2x16x2048x64) := by
  unfold Pipeline.afterTail₀
  show StableHlo.after hostOps1 _ (Proc.devRef .tc main_v5) = _
  after_results
  exact congrArg (fun A => shapeCast _ A _) (Pipeline.withArrays_arr spec0 launch0.win.arr_inj c _ _ 4)

/-- The second result: the weights array the region wrote, its leading axis split. -/
theorem tail_v6 (dats : (p : Fin 1) → (c : Dev nD) → Dat τ (Elt F) Unit ℕ (UR sig nD τ) ℕ (cfgs p) c) (c : Dev nD) :
    @Eq (S2x16x2048x2048.Idx → Elt F .f32) (Pipeline.afterTail₀ cfgs dats 0 (V0 m) [hostOps1] c main_v6)
      (shapeCast S2x16x2048x2048 ((dats 0 c).arrAt 5 cfg0.N) shapeCasts_S32x2048x2048_S2x16x2048x2048) := by
  unfold Pipeline.afterTail₀
  show StableHlo.after hostOps1 _ (Proc.devRef .tc main_v6) = _
  after_results
  exact congrArg (fun A => shapeCast _ A _) (Pipeline.withArrays_arr spec0 launch0.win.arr_inj c _ _ 5)

end Cert.KernelIdeal.AttnHost

end
-- ==== Proof.Spec.lean ====
/-
  Masked scaled-dot-product attention on the extended reals, row by row.

  Fix a batch, a head and a query row with entries q(d), d < 64.  Against key row k' (entries K(k', d)) the
  masked score is
      s(k') = -10^9 (its binary32 value)            where the mask word of (query row, k') is not zero,
      s(k') = (∑ d, q(d) · K(k', d)) · (1/8)        where it is,
  the row's weights are the softmax of the scores taken against their maximum,
      w(k) = exp (s(k) - max s) / ∑ k', exp (s(k') - max s),
  and the row of the context is  ctx(d) = ∑ k, w(k) · V(k, d).

  One program scales the query entries before the contraction, the other scales the contracted sum; the two
  agree on every extended real because the scale 1/8 is a nonnegative finite number, and multiplication by
  such a number distributes over a sum of extended reals whatever the summands are (`kscore_eq_score`).
  Float literals are kept as their words; only the scale is evaluated, once, here.
-/
import Idealize.ShloMosaic.PureOps.Ideal
import Idealize.ShloMosaic.PureOps.Ideal.Laws
import Idealize.ShloMosaic.Lib.ValueIdx

noncomputable section

namespace Cert.Attn

open Idealize.ShloMosaic

/-- The fill of a masked position: the binary32 word of -10^9. -/
def negBig : EReal := Ideal.ofBits .f32 0xCE6E6B28#32
/-- The scale 1/sqrt(64): the binary32 word of 1/8. -/
def eighth : EReal := Ideal.ofBits .f32 0x3E000000#32
/-- The value a running maximum starts from: the binary32 word of -infinity. -/
def negInf : EReal := Ideal.ofBits .f32 0xFF800000#32

/-- The word of 1/8 denotes the real 1/8. -/
theorem eighth_eq : eighth = ((1 / 8 : ℝ) : EReal) := by
  unfold eighth
  simp [Ideal.ofBits, Ideal.ieee, -EReal.coe_mul]; norm_num

theorem eighth_nonneg : 0 ≤ eighth := by
  rw [eighth_eq]; exact_mod_cast (by norm_num : (0 : ℝ) ≤ 1 / 8)

theorem eighth_ne_top : eighth ≠ ⊤ := by
  rw [eighth_eq]; exact EReal.coe_ne_top _

/-- The word of -infinity denotes the bottom of the extended reals. -/
theorem negInf_eq : negInf = ⊥ := by
  unfold negInf
  simp [Ideal.ofBits, Ideal.ieee]

/-- The masked score with the contracted sum scaled. -/
def score (q k : Fin 64 → EReal) (msk : BitVec 32) : EReal :=
  Scalar.select (IntOp.cmpi .ne msk 0#32) negBig ((∑ d : Fin 64, q d * k d) * eighth)

/-- The masked score with each query entry scaled before the contraction. -/
def kscore (q k : Fin 64 → EReal) (msk : BitVec 32) : EReal :=
  Scalar.select (IntOp.cmpi .ne msk 0#32) negBig (∑ d : Fin 64, (q d * eighth) * k d)

/-- Multiplication by a nonnegative finite extended real distributes over a finite sum. -/
theorem sum_mul_of_nonneg_of_ne_top {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- Scaling the query entries or scaling the contracted sum gives one score. -/
theorem kscore_eq_score (q k : Fin 64 → EReal) (msk : BitVec 32) : kscore q k msk = score q k msk := by
  unfold kscore score
  congr 1
  rw [sum_mul_of_nonneg_of_ne_top _ _ eighth_nonneg eighth_ne_top]
  exact Finset.sum_congr rfl fun d _ => by rw [mul_assoc, mul_comm eighth, ← mul_assoc]

/-- A row's maximum: the fold of `max` from -infinity over the 2048 positions. -/
def rowMax (s : Fin 2048 → EReal) : EReal := (Finset.univ : Finset (Fin 2048)).fold max negInf s

/-- The softmax weight of position `k` in a row of scores `s`. -/
def weight (s : Fin 2048 → EReal) (k : Fin 2048) : EReal :=
  Ideal.div (Ideal.exp (s k - rowMax s)) (∑ k' : Fin 2048, Ideal.exp (s k' - rowMax s))

/-- The context row: the weights against the value rows. -/
def context (w : Fin 2048 → EReal) (v : Fin 2048 → Fin 64 → EReal) (d : Fin 64) : EReal :=
  ∑ k : Fin 2048, w k * v k d

/-- The weights of one query row, scores grouped as the reference groups them. -/
def wrow (q : Fin 64 → EReal) (K : Fin 2048 → Fin 64 → EReal) (msk : Fin 2048 → BitVec 32) : Fin 2048 → EReal :=
  weight fun k' => score q (K k') (msk k')

/-- The weights of one query row, scores grouped as the kernel groups them. -/
def kwrow (q : Fin 64 → EReal) (K : Fin 2048 → Fin 64 → EReal) (msk : Fin 2048 → BitVec 32) : Fin 2048 → EReal :=
  weight fun k' => kscore q (K k') (msk k')

theorem kwrow_eq_wrow (q : Fin 64 → EReal) (K : Fin 2048 → Fin 64 → EReal) (msk : Fin 2048 → BitVec 32) :
    kwrow q K msk = wrow q K msk := by
  unfold kwrow wrow
  exact congrArg weight (funext fun k' => kscore_eq_score _ _ _)

end Cert.Attn

end
-- ==== Proof.Whole.lean ====
/-
  The attention rows assembled into whole arrays, in the two layouts the programs use.

  With batch and head merged into one leading axis of extent 32 (position 16·b + h), the weights array holds at
  (bh, q, k) the softmax weight of key k for query row q of slice bh, and the context array holds at (bh, q, d)
  that row's weights against column d of the slice's values: `weights3`, `context3` (scores grouped with the
  query entries scaled first).  With batch and head as two axes the same rows are `weights4`, `context4` (scores
  grouped with the contracted sum scaled).
-/
import proofs.«120132_j48335561949315_2_alg».proof.Proof.Spec

noncomputable section

namespace Cert.Attn

open Idealize.ShloMosaic Idealize.ShloMosaic.ValueIdx

abbrev Sh3 (n : Nat) : Shape := ⟨3, ![32, 2048, n]⟩
abbrev Sh4 (n : Nat) : Shape := ⟨4, ![2, 16, 2048, n]⟩

/-- Query row `q` of slice `bh`. -/
def qrow3 (Q : (Sh3 64).Idx → EReal) (bh : Fin 32) (q : Fin 2048) : Fin 64 → EReal := fun d => Q (ix3 bh q d)
/-- The key (or value) rows of slice `bh`. -/
def mat3 (K : (Sh3 64).Idx → EReal) (bh : Fin 32) : Fin 2048 → Fin 64 → EReal := fun k d => K (ix3 bh k d)
/-- The mask words of query row `q` of slice `bh`. -/
def mrow3 (M : (Sh3 2048).Idx → BitVec 32) (bh : Fin 32) (q : Fin 2048) : Fin 2048 → BitVec 32 := fun k => M (ix3 bh q k)

def weights3 (Q K : (Sh3 64).Idx → EReal) (M : (Sh3 2048).Idx → BitVec 32) : (Sh3 2048).Idx → EReal :=
  fun i => kwrow (qrow3 Q (i 0) (i 1)) (mat3 K (i 0)) (mrow3 M (i 0) (i 1)) (i 2)

def context3 (Q K V : (Sh3 64).Idx → EReal) (M : (Sh3 2048).Idx → BitVec 32) : (Sh3 64).Idx → EReal :=
  fun i => context (kwrow (qrow3 Q (i 0) (i 1)) (mat3 K (i 0)) (mrow3 M (i 0) (i 1))) (mat3 V (i 0)) (i 2)

def qrow4 (Q : (Sh4 64).Idx → EReal) (b : Fin 2) (h : Fin 16) (q : Fin 2048) : Fin 64 → EReal := fun d => Q (ix4 b h q d)
def mat4 (K : (Sh4 64).Idx → EReal) (b : Fin 2) (h : Fin 16) : Fin 2048 → Fin 64 → EReal := fun k d => K (ix4 b h k d)
def mrow4 (M : (Sh4 2048).Idx → BitVec 32) (b : Fin 2) (h : Fin 16) (q : Fin 2048) : Fin 2048 → BitVec 32 := fun k => M (ix4 b h q k)

def weights4 (Q K : (Sh4 64).Idx → EReal) (M : (Sh4 2048).Idx → BitVec 32) : (Sh4 2048).Idx → EReal :=
  fun i => wrow (qrow4 Q (i 0) (i 1) (i 2)) (mat4 K (i 0) (i 1)) (mrow4 M (i 0) (i 1) (i 2)) (i 3)

def context4 (Q K V : (Sh4 64).Idx → EReal) (M : (Sh4 2048).Idx → BitVec 32) : (Sh4 64).Idx → EReal :=
  fun i => context (wrow (qrow4 Q (i 0) (i 1) (i 2)) (mat4 K (i 0) (i 1)) (mrow4 M (i 0) (i 1) (i 2))) (mat4 V (i 0) (i 1)) (i 3)

end Cert.Attn

end
-- ==== Proof.LibKeepdims.lean ====
/-
  Sums along one axis of a matrix with the reduced axis kept as a unit axis, read at an index.

  A row sum of an `M×K` matrix kept as a column (`[M] → [M, 1]`) and broadcast over `N` columns reads, at `(p, c)`,
  the sum over `k : Fin K` of row `p`; a column sum of a `K×N` matrix kept as a row (`[N] → [1, N]`) and broadcast
  over `M` rows reads, at `(p, c)`, the sum over `k : Fin K` of column `c`. The two layout steps that the column form
  needs (a trailing unit axis added by a shape cast, a column broadcast over many columns) are stated on their own.
-/
import Idealize.ShloMosaic.PureOps.Ideal.Laws
import Idealize.ShloMosaic.Lib.ValueIdx
import Idealize.ShloMosaic.Lib.ValueLayout

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of a matrix over its columns (axis 1), at row `p`: the sum of that row. -/
theorem sum_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A lane sum of a matrix over its rows (axis 0), at column `q`: the sum of that column. -/
theorem sum_axis0_apply {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (funext fun ax => Fin.ext (by
      match ax with
      | ⟨0, _⟩ => rfl
      | ⟨1, _⟩ => rfl)))

/-- The row sums of an `M×K` matrix, kept as a column and broadcast over `N` columns, at `(p, c)`. -/
theorem rowSum_keep_bcast_apply {M K N : ℕ} {φ : FTy} (src : FVec Ideal (⟨2, ![M, K]⟩ : Shape) φ) (acc : BitVec φ.bits)
    (h : (⟨2, ![M, K]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩)
    (p : Fin M) (c : Fin N) :
    broadcastTo ⟨2, ![M, N]⟩ (shapeCast ⟨2, ![M, 1]⟩ (multiReduction .add [1] ⟨1, ![M]⟩ src acc h hφ hacc) hc) hb (ix2 p c)
      = ∑ k : Fin K, src (ix2 p k) :=
  (broadcastTo_a1_ab_apply _ hb p c).trans
    ((shapeCast_a_a1_apply _ hc p 0).trans (sum_axis1_apply src acc h hφ hacc p))

/-- The column sums of a `K×N` matrix, kept as a row and broadcast over `M` rows, at `(p, c)`. -/
theorem colSum_keep_bcast_apply {M K N : ℕ} {φ : FTy} (src : FVec Ideal (⟨2, ![K, N]⟩ : Shape) φ) (acc : BitVec φ.bits)
    (h : (⟨2, ![K, N]⟩ : Shape).Reduces [0] ⟨1, ![N]⟩) (hφ : FKind.Formats φ) (hacc : acc = FKind.add.neutral φ hφ)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ (multiReduction .add [0] ⟨1, ![N]⟩ src acc h hφ hacc) hc) hb (ix2 p c)
      = ∑ k : Fin K, src (ix2 k c) :=
  (broadcastTo_1b_ab_apply _ hb p c).trans
    ((shapeCast_a_1a_apply _ hc 0 c).trans (sum_axis0_apply src acc h hφ hacc c))

end Cert.Keepdims

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.Payload.lean ====
/-
  The stored values of the attention block, read entry by entry on the extended reals.

  One block holds 256 query rows against all 2048 keys of a slice.  The key and value blocks are stored
  unchanged (a leading unit axis dropped, a narrowing that is the identity on the extended reals).  For query
  row r the scores are s(k') = -10^9 where the mask word at (r, k') is not zero and
  s(k') = sum over d of (q(r, d) * 1/8) * K(k', d) where it is; the stored weight at (r, k) is
  exp (s(k) - max s) / sum over k' of exp (s(k') - max s), the maximum taken as a fold of max from
  -infinity along the row; and the stored context at (r, d) is the sum over k of the weight at (r, k) times V(k, d).
  The row maximum and the row sum are each kept as a column and broadcast back along the row, so every entry
  of row r reads the same maximum and the same sum.
-/
import proofs.«120132_j48335561949315_2_alg».proof.Proof.Whole
import proofs.«120132_j48335561949315_2_alg».proof.Proof.Gen.KernelIdeal.Skeleton
import proofs.«120132_j48335561949315_2_alg».proof.Proof.LibKeepdims
import proofs.«120132_j48335561949315_2_alg».proof.Proof.LibPlainDot
import Idealize.ShloMosaic.Lib.Pipeline.Value
import Idealize.ShloMosaic.Lib.ValueLayout
import Idealize.ShloMosaic.PureOps.Ideal.Laws

noncomputable section
open Idealize.ShloMosaic Idealize.ShloMosaic.ValueIdx Cert.Attn
namespace Cert.Attn.Payload
open Cert.KernelIdeal Cert.KernelIdeal.Gen

/-- A lane maximum of a matrix over its columns (axis 1), at row p: the fold of max over that row. -/
theorem max_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (funext fun ax => Fin.ext (by
        match ax with
        | ⟨0, _⟩ => rfl
        | ⟨1, _⟩ => rfl))))

/-- The row maxima of an M×K matrix, kept as a column and broadcast over N columns, at (p, c). -/
theorem rowMax_keep_bcast_apply {M K N : ℕ} {φ : FTy} (src : FVec Ideal (⟨2, ![M, K]⟩ : Shape) φ) (acc : BitVec φ.bits)
    (h : (⟨2, ![M, K]⟩ : Shape).Reduces [1] ⟨1, ![M]⟩) (hφ : FKind.Formats φ) (hacc : acc = FKind.maximumf.neutral φ hφ)
    (hc : (⟨1, ![M]⟩ : Shape).ShapeCasts ⟨2, ![M, 1]⟩) (hb : (⟨2, ![M, 1]⟩ : Shape).Broadcasts ⟨2, ![M, N]⟩)
    (p : Fin M) (c : Fin N) :
    broadcastTo ⟨2, ![M, N]⟩ (shapeCast ⟨2, ![M, 1]⟩ (multiReduction .maximumf [1] ⟨1, ![M]⟩ src acc h hφ hacc) hc) hb (ix2 p c)
      = (Finset.univ : Finset (Fin K)).fold max (Ideal.ofBits φ acc) (fun k => src (ix2 p k)) :=
  (Cert.Keepdims.broadcastTo_a1_ab_apply _ hb p c).trans
    ((Cert.Keepdims.shapeCast_a_a1_apply _ hc p 0).trans (max_axis1_apply src acc h hφ hacc p))

/-- The contraction sum of the 256×64 by 2048×64 product (both operands contracted on their second axis) at (r, k'). -/
theorem contr_sum_nt (l : S256x64.Idx → EReal) (w : S2048x64.Idx → EReal) (j : S256x2048.Idx) :
    (∑ q : dot_S256x64_S2048x64_S256x2048_1_1_0_0_n_n.contr.Idx,
        l (dot_S256x64_S2048x64_S256x2048_1_1_0_0_n_n.lhsIdx j q) * w (dot_S256x64_S2048x64_S256x2048_1_1_0_0_n_n.rhsIdx j q))
      = ∑ d : Fin 64, l (ix2 (j 0) d) * w (ix2 (j 1) d) := by
  rw [← Equiv.sum_comp (contrEquiv1 dot_S256x64_S2048x64_S256x2048_1_1_0_0_n_n 64 rfl rfl).symm]
  refine Finset.sum_congr rfl fun k _ => ?_
  have hk := contrEquiv1_symm_val dot_S256x64_S2048x64_S256x2048_1_1_0_0_n_n 64 rfl rfl k
  have el : dot_S256x64_S2048x64_S256x2048_1_1_0_0_n_n.lhsIdx j ((contrEquiv1 dot_S256x64_S2048x64_S256x2048_1_1_0_0_n_n 64 rfl rfl).symm k) = ix2 (j 0) k :=
    funext fun a => Fin.ext (by
      match a with
      | ⟨0, _⟩ => rfl
      | ⟨1, _⟩ => exact hk)
  have er : dot_S256x64_S2048x64_S256x2048_1_1_0_0_n_n.rhsIdx j ((contrEquiv1 dot_S256x64_S2048x64_S256x2048_1_1_0_0_n_n 64 rfl rfl).symm k) = ix2 (j 1) k :=
    funext fun a => Fin.ext (by
      match a with
      | ⟨0, _⟩ => rfl
      | ⟨1, _⟩ => exact hk)
  rw [el, er]
  rfl

/-- The masked score of the block at (r, k'): the query row scaled entry by entry, contracted against key row k',
    replaced by -10^9 where the mask word is not zero. -/
theorem score_apply (x0 : Vec Ideal S1x256x64 .f32) (x3 : Vec Ideal S1x256x2048 .i32) (ks : Vec Ideal S2048x64 .bf16)
    (r : Fin 256) (k' : Fin 2048) :
    (select (cmpi .ne (shapeCast S256x2048 x3 shapeCasts_S1x256x2048_S256x2048) (broadcast S256x2048 0#32))
        (broadcast S256x2048 (Scalar.ofBits (F := Ideal) .f32 0xCE6E6B28#32))
        (matmul (φ₂ := .bf16) dot_S256x64_S2048x64_S256x2048_1_1_0_0_n_n none
          (truncf .bf16 (mulf (shapeCast S256x64 x0 shapeCasts_S1x256x64_S256x64)
            (broadcast S256x64 (Scalar.ofBits (F := Ideal) .f32 0x3E000000#32))) bitsLt_bf16_f32)
          ks (constant S256x2048 .f32 0x00000000#32)) : FVec Ideal S256x2048 .f32) (ix2 r k')
      = kscore (fun d => x0 (ix3 0 r d)) (fun d => ks (ix2 k' d)) (x3 (ix3 0 r k')) := by
  have hl : ∀ d : Fin 64,
      (truncf .bf16 (mulf (shapeCast S256x64 x0 shapeCasts_S1x256x64_S256x64)
        (broadcast S256x64 (Scalar.ofBits (F := Ideal) .f32 0x3E000000#32))) bitsLt_bf16_f32 : FVec Ideal S256x64 .bf16) (ix2 r d)
        = x0 (ix3 0 r d) * eighth := fun d =>
    congrArg (· * eighth) (shapeCast_1ab_ab_apply x0 shapeCasts_S1x256x64_S256x64 r d)
  have hm : (matmul (φ₂ := .bf16) dot_S256x64_S2048x64_S256x2048_1_1_0_0_n_n none
          (truncf .bf16 (mulf (shapeCast S256x64 x0 shapeCasts_S1x256x64_S256x64)
            (broadcast S256x64 (Scalar.ofBits (F := Ideal) .f32 0x3E000000#32))) bitsLt_bf16_f32)
          ks (constant S256x2048 .f32 0x00000000#32) : FVec Ideal S256x2048 .f32) (ix2 r k')
        = ∑ d : Fin 64, (x0 (ix3 0 r d) * eighth) * ks (ix2 k' d) :=
    (Ideal.matmul_constant_zero_apply (φ₁ := .bf16) (φ₂ := .bf16) dot_S256x64_S2048x64_S256x2048_1_1_0_0_n_n none _ ks (ix2 r k')).trans
      ((contr_sum_nt _ ks (ix2 r k')).trans
        (Finset.sum_congr rfl fun d _ => congrArg (· * ks (ix2 k' d)) (hl d)))
  have hc : shapeCast S256x2048 x3 shapeCasts_S1x256x2048_S256x2048 (ix2 r k') = x3 (ix3 0 r k') :=
    shapeCast_1ab_ab_apply x3 shapeCasts_S1x256x2048_S256x2048 r k'
  unfold kscore
  rw [← hm, ← hc]
  rfl

/-- The softmax of a 256×2048 matrix of scores along its rows, as the block computes it (row maximum and row sum
    each kept as a column and broadcast back), at (r, k): the weight of position k in row r. -/
theorem softmax_apply (S : FVec Ideal S256x2048 .f32) (r : Fin 256) (k : Fin 2048) :
    divf
      (exp (subf S (broadcastTo S256x2048 (shapeCast S256x1
        (multiReduction .maximumf [1] S256 S 0xFF800000#32 reduces_S256x2048_S256 (.inl rfl) rfl)
        shapeCasts_S256_S256x1) broadcasts_S256x1_S256x2048)))
      (broadcastTo S256x2048 (shapeCast S256x1
        (multiReduction .add [1] S256
          (exp (subf S (broadcastTo S256x2048 (shapeCast S256x1
            (multiReduction .maximumf [1] S256 S 0xFF800000#32 reduces_S256x2048_S256 (.inl rfl) rfl)
            shapeCasts_S256_S256x1) broadcasts_S256x1_S256x2048)))
          0x00000000#32 reduces_S256x2048_S256 (.inl rfl) rfl)
        shapeCasts_S256_S256x1) broadcasts_S256x1_S256x2048) (ix2 r k)
      = weight (fun k' => S (ix2 r k')) k := by
  have hmax : ∀ c : Fin 2048,
      broadcastTo S256x2048 (shapeCast S256x1
        (multiReduction .maximumf [1] S256 S 0xFF800000#32 reduces_S256x2048_S256 (.inl rfl) rfl)
        shapeCasts_S256_S256x1) broadcasts_S256x1_S256x2048 (ix2 r c)
        = rowMax (fun k' => S (ix2 r k')) := fun c =>
    rowMax_keep_bcast_apply S 0xFF800000#32 reduces_S256x2048_S256 (.inl rfl) rfl
      shapeCasts_S256_S256x1 broadcasts_S256x1_S256x2048 r c
  have he : ∀ c : Fin 2048,
      (exp (subf S (broadcastTo S256x2048 (shapeCast S256x1
        (multiReduction .maximumf [1] S256 S 0xFF800000#32 reduces_S256x2048_S256 (.inl rfl) rfl)
        shapeCasts_S256_S256x1) broadcasts_S256x1_S256x2048)) : FVec Ideal S256x2048 .f32) (ix2 r c)
        = Ideal.exp (S (ix2 r c) - rowMax (fun k' => S (ix2 r k'))) := fun c =>
    congrArg (fun m => Ideal.exp (S (ix2 r c) - m)) (hmax c)
  have hs :
      broadcastTo S256x2048 (shapeCast S256x1
        (multiReduction .add [1] S256
          (exp (subf S (broadcastTo S256x2048 (shapeCast S256x1
            (multiReduction .maximumf [1] S256 S 0xFF800000#32 reduces_S256x2048_S256 (.inl rfl) rfl)
            shapeCasts_S256_S256x1) broadcasts_S256x1_S256x2048)))
          0x00000000#32 reduces_S256x2048_S256 (.inl rfl) rfl)
        shapeCasts_S256_S256x1) broadcasts_S256x1_S256x2048 (ix2 r k)
        = ∑ k' : Fin 2048, Ideal.exp (S (ix2 r k') - rowMax (fun k'' => S (ix2 r k''))) :=
    (Cert.Keepdims.rowSum_keep_bcast_apply _ 0x00000000#32 reduces_S256x2048_S256 (.inl rfl) rfl
      shapeCasts_S256_S256x1 broadcasts_S256x1_S256x2048 r k).trans
      (Finset.sum_congr rfl fun c _ => he c)
  unfold weight
  rw [← hs, ← he k]
  rfl

/-- The key block, its leading unit axis dropped and narrowed: the block's own entries. -/
theorem pay2_apply (x1 : Vec Ideal S1x2048x64 .f32) (k : Fin 2048) (d : Fin 64) :
    k0_pay2 (F := Ideal) x1 (ix2 k d) = x1 (ix3 0 k d) := by
  unfold k0_pay2
  rw [shapeCast_self]
  exact (truncf_apply (ψ := .bf16) _ bitsLt_bf16_f32 _).trans (shapeCast_1ab_ab_apply x1 _ k d)

/-- The value block likewise. -/
theorem pay3_apply (x2 : Vec Ideal S1x2048x64 .f32) (k : Fin 2048) (d : Fin 64) :
    k0_pay3 (F := Ideal) x2 (ix2 k d) = x2 (ix3 0 k d) := by
  unfold k0_pay3
  rw [shapeCast_self]
  exact (truncf_apply (ψ := .bf16) _ bitsLt_bf16_f32 _).trans (shapeCast_1ab_ab_apply x2 _ k d)

/-- The weights block: at (r, k) the softmax weight of key k for query row r, the scores grouped with the query
    entries scaled first. -/
theorem pay4_apply (x0 : Vec Ideal S1x256x64 .f32) (x3 : Vec Ideal S1x256x2048 .i32) (ks : Vec Ideal S2048x64 .bf16)
    (r : Fin 256) (k : Fin 2048) :
    k0_pay4 (F := Ideal) x0 x3 ks (ix2 r k)
      = kwrow (fun d => x0 (ix3 0 r d)) (fun k' d => ks (ix2 k' d)) (fun k' => x3 (ix3 0 r k')) k := by
  unfold k0_pay4
  refine (softmax_apply _ r k).trans ?_
  unfold kwrow
  exact congrArg (fun s => weight s k) (funext fun k' => score_apply x0 x3 ks r k')

/-- The weights block with a leading unit axis added. -/
theorem pay5_apply (x0 : Vec Ideal S1x256x64 .f32) (x3 : Vec Ideal S1x256x2048 .i32) (ks : Vec Ideal S2048x64 .bf16)
    (r : Fin 256) (k : Fin 2048) :
    k0_pay5 (F := Ideal) x0 x3 ks (ix3 0 r k) = k0_pay4 (F := Ideal) x0 x3 ks (ix2 r k) := by
  unfold k0_pay5
  exact shapeCast_ab_1ab_apply (k0_pay4 (F := Ideal) x0 x3 ks) _ 0 r k

/-- The context block: at (r, d) the weights of row r against column d of the values. -/
theorem pay6_apply (x0 : Vec Ideal S1x256x64 .f32) (x3 : Vec Ideal S1x256x2048 .i32) (ks vs : Vec Ideal S2048x64 .bf16)
    (r : Fin 256) (d : Fin 64) :
    k0_pay6 (F := Ideal) x0 x3 ks vs (ix2 r d)
      = context (fun k => k0_pay4 (F := Ideal) x0 x3 ks (ix2 r k)) (fun k d => vs (ix2 k d)) d := by
  unfold k0_pay6 context
  exact Cert.PlainDot.matmul_zero_apply 256 2048 64 none
    (truncf .bf16 (k0_pay4 (F := Ideal) x0 x3 ks) bitsLt_bf16_f32) vs (ix2 r d)

/-- The context block with a leading unit axis added. -/
theorem pay1_apply (v : FVec Ideal S256x64 .f32) (r : Fin 256) (d : Fin 64) :
    k0_pay1 (F := Ideal) v (ix3 0 r d) = v (ix2 r d) := by
  unfold k0_pay1
  exact shapeCast_ab_1ab_apply v _ 0 r d

end Cert.Attn.Payload

end
-- ==== Proof.Blocks.lean ====
/-
  One block of the body's output is the corresponding block of the whole-array functions.

  Let a query block, a key block, a value block and a mask block be given together with whole arrays Q, K, V, M
  (leading axis: the 32 slices) such that the blocks are rows of slice s: row r of the query and mask blocks is row
  y of the slice, and the key and value blocks are the slice's whole [2048, 64] matrices.  Then entry (r, k) of the
  weights the body stores is entry (s, y, k) of `weights3 Q K M`, and entry (r, d) of the context it stores is
  entry (s, y, d) of `context3 Q K V M`: the stored payloads read at an entry are the row functions of the
  specification applied to those rows.
-/
import proofs.«120132_j48335561949315_2_alg».proof.Proof.Payload

noncomputable section

namespace Cert.Attn.Blocks

open Idealize.ShloMosaic Idealize.ShloMosaic.ValueIdx Cert.Attn Cert.Attn.Payload
open Cert.KernelIdeal Cert.KernelIdeal.Gen

/-- The stored weights at entry (r, k) of a block whose row r is row y of slice s. -/
theorem wblock_eq (x0 : Vec Ideal S1x256x64 .f32) (x1 : Vec Ideal S1x2048x64 .f32) (x3 : Vec Ideal S1x256x2048 .i32)
    (Q K : (Sh3 64).Idx → EReal) (M : (Sh3 2048).Idx → BitVec 32) (s : Fin 32) (y : Fin 2048) (r : Fin 256)
    (h0 : ∀ d, x0 (ix3 0 r d) = Q (ix3 s y d)) (h1 : ∀ k d, x1 (ix3 0 k d) = K (ix3 s k d))
    (h3 : ∀ k, x3 (ix3 0 r k) = M (ix3 s y k)) (k : Fin 2048) :
    k0_pay5 (F := Ideal) x0 x3 (k0_pay2 x1) (ix3 0 r k) = weights3 Q K M (ix3 s y k) := by
  refine (pay5_apply x0 x3 _ r k).trans ((pay4_apply x0 x3 _ r k).trans ?_)
  show _ = kwrow (qrow3 Q s y) (mat3 K s) (mrow3 M s y) k
  have e0 : (fun d => x0 (ix3 0 r d)) = qrow3 Q s y := funext h0
  have e1 : (fun k' d => k0_pay2 (F := Ideal) x1 (ix2 k' d)) = mat3 K s :=
    funext fun k' => funext fun d => (pay2_apply x1 k' d).trans (h1 k' d)
  have e3 : (fun k' => x3 (ix3 0 r k')) = mrow3 M s y := funext h3
  rw [e0, e1, e3]

/-- The stored context at entry (r, d) of a block whose row r is row y of slice s. -/
theorem cblock_eq (x0 : Vec Ideal S1x256x64 .f32) (x1 x2 : Vec Ideal S1x2048x64 .f32) (x3 : Vec Ideal S1x256x2048 .i32)
    (Q K V : (Sh3 64).Idx → EReal) (M : (Sh3 2048).Idx → BitVec 32) (s : Fin 32) (y : Fin 2048) (r : Fin 256)
    (h0 : ∀ d, x0 (ix3 0 r d) = Q (ix3 s y d)) (h1 : ∀ k d, x1 (ix3 0 k d) = K (ix3 s k d))
    (h2 : ∀ k d, x2 (ix3 0 k d) = V (ix3 s k d)) (h3 : ∀ k, x3 (ix3 0 r k) = M (ix3 s y k)) (d : Fin 64) :
    k0_pay1 (F := Ideal) (k0_pay6 x0 x3 (k0_pay2 x1) (k0_pay3 x2)) (ix3 0 r d) = context3 Q K V M (ix3 s y d) := by
  refine (pay1_apply _ r d).trans ((pay6_apply x0 x3 _ _ r d).trans ?_)
  show _ = context (kwrow (qrow3 Q s y) (mat3 K s) (mrow3 M s y)) (mat3 V s) d
  have e0 : (fun d => x0 (ix3 0 r d)) = qrow3 Q s y := funext h0
  have e1 : (fun k' d => k0_pay2 (F := Ideal) x1 (ix2 k' d)) = mat3 K s :=
    funext fun k' => funext fun d => (pay2_apply x1 k' d).trans (h1 k' d)
  have e3 : (fun k' => x3 (ix3 0 r k')) = mrow3 M s y := funext h3
  have ew : (fun k => k0_pay4 (F := Ideal) x0 x3 (k0_pay2 x1) (ix2 r k)) = kwrow (qrow3 Q s y) (mat3 K s) (mrow3 M s y) :=
    funext fun k => (pay4_apply x0 x3 _ r k).trans (by rw [e0, e1, e3])
  have ev : (fun k d => k0_pay3 (F := Ideal) x2 (ix2 k d)) = mat3 V s :=
    funext fun k => funext fun d => (pay3_apply x2 k d).trans (h2 k d)
  rw [ew, ev]

end Cert.Attn.Blocks

end
-- ==== Proof.Layout.lean ====
/-
  Merging the batch axis (extent 2) and the head axis (extent 16) into one leading axis of extent 32, slice
  (b, h) at position 16·b + h, does not move any entry in row-major order: the entry at (b, h, q, d) of a
  [2, 16, 2048, n] array and the entry at (16·b + h, q, d) of the [32, 2048, n] array with the same row-major
  contents sit at the same position ((16·b + h)·2048 + q)·n + d.  Hence re-laying an array and reading it by
  coordinates is reading the original at the split or merged coordinates (`split_apply`, `merge_apply`).

  The attention rows only ever look inside one slice: query row q of slice 16·b + h of the merged queries is
  query row q of slice (b, h) of the original, and likewise for keys, values and mask words.  So the weights
  and the context computed on the merged arrays and re-laid back are the weights and the context computed on the
  four-axis arrays (`weights_merge`, `context_merge`); the two ways of grouping the score's scale agree by
  `kwrow_eq_wrow`.
-/
import proofs.«120132_j48335561949315_2_alg».proof.Proof.Whole
import Idealize.ShloMosaic.Lib.Pipeline.Value

noncomputable section
open Idealize.ShloMosaic Idealize.ShloMosaic.ValueIdx Cert.Attn
namespace Cert.Attn.Layout

/-- Reading the merged layout at slice `bh` is reading the four-axis array at batch `bh / 16`, head `bh % 16`. -/
theorem split_apply {α : Type} (n : Nat) (X : (Sh4 n).Idx → α) (hc : (Sh4 n).ShapeCasts (Sh3 n))
    (bh : Fin 32) (q : Fin 2048) (d : Fin n) :
    shapeCast (Sh3 n) X hc (ix3 bh q d) = X (ix4 ⟨bh.val / 16, by omega⟩ ⟨bh.val % 16, by omega⟩ q d) :=
  shapeCast_apply X hc _ _ (by
    rw [Shape.rowMajor_val_four, Shape.rowMajor_val_three]
    show ((bh.val / 16 * 16 + bh.val % 16) * 2048 + q.val) * n + d.val = (bh.val * 2048 + q.val) * n + d.val
    have e : bh.val / 16 * 16 + bh.val % 16 = bh.val := by omega
    rw [e])

/-- Reading the four-axis layout at batch `b`, head `h` is reading the merged array at slice `16·b + h`. -/
theorem merge_apply {α : Type} (n : Nat) (Y : (Sh3 n).Idx → α) (hc : (Sh3 n).ShapeCasts (Sh4 n))
    (b : Fin 2) (h : Fin 16) (q : Fin 2048) (d : Fin n) :
    shapeCast (Sh4 n) Y hc (ix4 b h q d) = Y (ix3 ⟨16 * b.val + h.val, by omega⟩ q d) :=
  shapeCast_apply Y hc _ _ (by
    rw [Shape.rowMajor_val_four, Shape.rowMajor_val_three]
    show ((16 * b.val + h.val) * 2048 + q.val) * n + d.val = ((b.val * 16 + h.val) * 2048 + q.val) * n + d.val
    rw [Nat.mul_comm 16 b.val])

/-- Splitting the merged position of slice `(b, h)` gives back `(b, h)`. -/
private theorem ix4_split {α : Type} {n : Nat} (X : (Sh4 n).Idx → α) (b : Fin 2) (h : Fin 16) (q : Fin 2048) (d : Fin n)
    (p1 : (16 * b.val + h.val) / 16 < 2) (p2 : (16 * b.val + h.val) % 16 < 16) :
    X (ix4 (⟨(16 * b.val + h.val) / 16, p1⟩ : Fin 2) (⟨(16 * b.val + h.val) % 16, p2⟩ : Fin 16) q d) = X (ix4 b h q d) := by
  have e1 : (⟨(16 * b.val + h.val) / 16, p1⟩ : Fin 2) = b := Fin.ext (by show (16 * b.val + h.val) / 16 = b.val; omega)
  have e2 : (⟨(16 * b.val + h.val) % 16, p2⟩ : Fin 16) = h := Fin.ext (by show (16 * b.val + h.val) % 16 = h.val; omega)
  rw [e1, e2]

/-- A query row of the merged queries is the query row of the slice it came from. -/
private theorem qrow_merge (Q : (Sh4 64).Idx → EReal) (h1 : (Sh4 64).ShapeCasts (Sh3 64))
    (b : Fin 2) (h : Fin 16) (q : Fin 2048) (p : 16 * b.val + h.val < 32) :
    qrow3 (shapeCast (Sh3 64) Q h1) ⟨16 * b.val + h.val, p⟩ q = qrow4 Q b h q := by
  funext d
  unfold qrow3 qrow4
  rw [split_apply]
  exact ix4_split Q b h q d _ _

/-- The key (or value) rows of a merged slice are those of the slice it came from. -/
private theorem mat_merge (K : (Sh4 64).Idx → EReal) (h2 : (Sh4 64).ShapeCasts (Sh3 64))
    (b : Fin 2) (h : Fin 16) (p : 16 * b.val + h.val < 32) :
    mat3 (shapeCast (Sh3 64) K h2) ⟨16 * b.val + h.val, p⟩ = mat4 K b h := by
  funext k d
  unfold mat3 mat4
  rw [split_apply]
  exact ix4_split K b h k d _ _

/-- The mask words of a merged query row are those of the row it came from. -/
private theorem mrow_merge (M : (Sh4 2048).Idx → BitVec 32) (h3 : (Sh4 2048).ShapeCasts (Sh3 2048))
    (b : Fin 2) (h : Fin 16) (q : Fin 2048) (p : 16 * b.val + h.val < 32) :
    mrow3 (shapeCast (Sh3 2048) M h3) ⟨16 * b.val + h.val, p⟩ q = mrow4 M b h q := by
  funext k
  unfold mrow3 mrow4
  rw [split_apply]
  exact ix4_split M b h q k _ _

/-- The weights computed on the merged arrays, re-laid back, are the weights of the four-axis arrays. -/
theorem weights_merge (Q K : (Sh4 64).Idx → EReal) (M : (Sh4 2048).Idx → BitVec 32)
    (h1 h2 : (Sh4 64).ShapeCasts (Sh3 64)) (h3 : (Sh4 2048).ShapeCasts (Sh3 2048)) (h4 : (Sh3 2048).ShapeCasts (Sh4 2048)) :
    shapeCast (Sh4 2048) (weights3 (shapeCast (Sh3 64) Q h1) (shapeCast (Sh3 64) K h2) (shapeCast (Sh3 2048) M h3)) h4
      = weights4 Q K M := by
  funext i
  obtain ⟨b, h, q, k, rfl⟩ : ∃ (b : Fin 2) (h : Fin 16) (q : Fin 2048) (k : Fin 2048), i = ix4 b h q k :=
    ⟨i 0, i 1, i 2, i 3, eq_ix4 i⟩
  rw [merge_apply]
  show kwrow (qrow3 (shapeCast (Sh3 64) Q h1) ⟨16 * b.val + h.val, _⟩ q) (mat3 (shapeCast (Sh3 64) K h2) ⟨16 * b.val + h.val, _⟩)
      (mrow3 (shapeCast (Sh3 2048) M h3) ⟨16 * b.val + h.val, _⟩ q) k
    = wrow (qrow4 Q b h q) (mat4 K b h) (mrow4 M b h q) k
  rw [qrow_merge, mat_merge, mrow_merge, kwrow_eq_wrow]

/-- The context computed on the merged arrays, re-laid back, is the context of the four-axis arrays. -/
theorem context_merge (Q K V : (Sh4 64).Idx → EReal) (M : (Sh4 2048).Idx → BitVec 32)
    (h1 h2 h5 : (Sh4 64).ShapeCasts (Sh3 64)) (h3 : (Sh4 2048).ShapeCasts (Sh3 2048)) (h4 : (Sh3 64).ShapeCasts (Sh4 64)) :
    shapeCast (Sh4 64) (context3 (shapeCast (Sh3 64) Q h1) (shapeCast (Sh3 64) K h2) (shapeCast (Sh3 64) V h5) (shapeCast (Sh3 2048) M h3)) h4
      = context4 Q K V M := by
  funext i
  obtain ⟨b, h, q, d, rfl⟩ : ∃ (b : Fin 2) (h : Fin 16) (q : Fin 2048) (d : Fin 64), i = ix4 b h q d :=
    ⟨i 0, i 1, i 2, i 3, eq_ix4 i⟩
  rw [merge_apply]
  show context (kwrow (qrow3 (shapeCast (Sh3 64) Q h1) ⟨16 * b.val + h.val, _⟩ q) (mat3 (shapeCast (Sh3 64) K h2) ⟨16 * b.val + h.val, _⟩)
      (mrow3 (shapeCast (Sh3 2048) M h3) ⟨16 * b.val + h.val, _⟩ q)) (mat3 (shapeCast (Sh3 64) V h5) ⟨16 * b.val + h.val, _⟩) d
    = context (wrow (qrow4 Q b h q) (mat4 K b h) (mrow4 M b h q)) (mat4 V b h) d
  rw [qrow_merge, mat_merge, mat_merge, mrow_merge, kwrow_eq_wrow]

end Cert.Attn.Layout
end
-- ==== Proof.KernelValue.lean ====
/-
  The idealized kernel's run, read as values: the two results are the attention of the four arguments.

  What point t writes back into the weights array is block t of `weights3` of the arrays the region finds, and
  what it writes back into the context array is block t of `context3` of them: the block holds the body's stored
  payloads of the point's own blocks (the carried scratch buffers being the narrowed key and value blocks of
  the point's slice), those blocks are rows of slice t / 8 of the arrays, and the payloads at an entry are the
  row functions.  The 256 blocks cover each array, so after the region the arrays ARE `weights3` and `context3`
  of the merged arguments; the two reshapes after the region split the leading axis again, and merging, computing
  and splitting is computing on the four-axis arguments.
-/
import proofs.«120132_j48335561949315_2_alg».proof.Proof.Cover
import proofs.«120132_j48335561949315_2_alg».proof.Proof.HostEnds
import proofs.«120132_j48335561949315_2_alg».proof.Proof.Blocks
import proofs.«120132_j48335561949315_2_alg».proof.Proof.Layout

set_option maxRecDepth 16384

noncomputable section

namespace Cert.KernelIdeal.AttnValue

open Idealize.ShloMosaic Idealize.ShloMosaic.TcCoe Idealize.SL.Sem Idealize.ShloMosaic.ValueIdx
open Idealize.ShloMosaic.Pipeline (Dat)
open Cert.KernelIdeal Cert.KernelIdeal.Gen Cert.Attn
open Cert.KernelIdeal.AttnCarried Cert.KernelIdeal.AttnCover Cert.KernelIdeal.AttnHost

variable (m : (ℓ : Loc nD τ sig) → Buf (Elt Ideal) ℓ) (ρ : Dev nD → PrngReg)

/-- What point t writes back into the weights array: block t of the weights of the arrays the region finds. -/
theorem flushed5_eq (c : Dev nD) (t : Fin cfg0.N) :
    (dats m 0 c).flushed 5 t
      = ((cfg0.win 5).blk t).view.read (Elt Ideal) (weights3 (V m c main_v0) (V m c main_v1) (V m c main_v3)) := by
  show (cfg0.win 5).cut (grid0.coords t) ((dats m 0 c).after 5 t) = _
  rw [after0_5, (outs_eq m c t).2]
  refine funext fun (j : S1x256x2048.Idx) => ?_
  obtain ⟨u, r, k, rfl⟩ : ∃ (u : Fin 1) (r : Fin 256) (k : Fin 2048), j = ix3 u r k := ⟨j 0, j 1, j 2, eq_ix3 j⟩
  obtain rfl : u = 0 := Subsingleton.elim _ _
  rw [View.read_apply, emb5]
  exact Blocks.wblock_eq (iblk m c 0 t) (iblk m c 1 t) (iblk m c 3 t) _ _ _ (slice t) (trow t r) r
    (fun d => iblk0_apply m c t 0 r d) (fun k d => iblk1_apply m c t 0 k d) (fun k => iblk3_apply m c t 0 r k) k

/-- What point t writes back into the context array: block t of the context of the arrays the region finds. -/
theorem flushed4_eq (c : Dev nD) (t : Fin cfg0.N) :
    (dats m 0 c).flushed 4 t
      = ((cfg0.win 4).blk t).view.read (Elt Ideal)
          (context3 (V m c main_v0) (V m c main_v1) (V m c main_v2) (V m c main_v3)) := by
  show (cfg0.win 4).cut (grid0.coords t) ((dats m 0 c).after 4 t) = _
  rw [after0_4, (outs_eq m c t).1]
  refine funext fun (j : S1x256x64.Idx) => ?_
  obtain ⟨u, r, d, rfl⟩ : ∃ (u : Fin 1) (r : Fin 256) (d : Fin 64), j = ix3 u r d := ⟨j 0, j 1, j 2, eq_ix3 j⟩
  obtain rfl : u = 0 := Subsingleton.elim _ _
  rw [View.read_apply, emb4]
  exact Blocks.cblock_eq (iblk m c 0 t) (iblk m c 1 t) (iblk m c 2 t) (iblk m c 3 t) _ _ _ _ (slice t) (trow t r) r
    (fun d => iblk0_apply m c t 0 r d) (fun k d => iblk1_apply m c t 0 k d) (fun k d => iblk2_apply m c t 0 k d)
    (fun k => iblk3_apply m c t 0 r k) d

/-- After the region the weights array is the weights of the arrays the region found. -/
theorem final5 (c : Dev nD) :
    (dats m 0 c).arrAt 5 cfg0.N = weights3 (V m c main_v0) (V m c main_v1) (V m c main_v3) :=
  (dats m 0 c).arrAt_eq_of_cover 5 _ (fun t _ => flushed5_eq m c t) cover5

/-- After the region the context array is the context of the arrays the region found. -/
theorem final4 (c : Dev nD) :
    (dats m 0 c).arrAt 4 cfg0.N = context3 (V m c main_v0) (V m c main_v1) (V m c main_v2) (V m c main_v3) :=
  (dats m 0 c).arrAt_eq_of_cover 4 _ (fun t _ => flushed4_eq m c t) cover4

/-- The second result is the weights of the four-axis arguments. -/
theorem result_weights (c : Dev nD) :
    @Eq (S2x16x2048x2048.Idx → EReal) (Pipeline.afterTail₀ cfgs (dats m) 0 (V0 m) [hostOps1] c main_v6)
      (weights4 (m ((c : Thread nD τ).loc main_arg0)) (m ((c : Thread nD τ).loc main_arg1)) (m ((c : Thread nD τ).loc main_arg3))) := by
  rw [tail_v6 m (dats m) c, final5 m c, V_v0 m c, V_v1 m c, V_v3 m c]
  exact Layout.weights_merge _ _ _ _ _ _ _

/-- The first result is the context of the four-axis arguments. -/
theorem result_context (c : Dev nD) :
    @Eq (S2x16x2048x64.Idx → EReal) (Pipeline.afterTail₀ cfgs (dats m) 0 (V0 m) [hostOps1] c main_v5)
      (context4 (m ((c : Thread nD τ).loc main_arg0)) (m ((c : Thread nD τ).loc main_arg1)) (m ((c : Thread nD τ).loc main_arg2))
        (m ((c : Thread nD τ).loc main_arg3))) := by
  rw [tail_v5 m (dats m) c, final4 m c, V_v0 m c, V_v1 m c, V_v2 m c, V_v3 m c]
  exact Layout.context_merge _ _ _ _ _ _ _ _ _

/-- The run, read: both results at the attention of the arguments, the arguments unchanged. -/
theorem run : θ_run defs (onTc (τ := τ) (main (F := Ideal))) ⟨m, fun _ => 0, ρ⟩ fun r => ∀ c : Dev nD,
      r.2.mem ((c : Thread nD τ).loc main_v5)
          = context4 (m ((c : Thread nD τ).loc main_arg0)) (m ((c : Thread nD τ).loc main_arg1)) (m ((c : Thread nD τ).loc main_arg2))
              (m ((c : Thread nD τ).loc main_arg3))
      ∧ r.2.mem ((c : Thread nD τ).loc main_v6)
          = weights4 (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v5 (Pipeline.mem_restRefs_of main_v5 (by decide) (by decide))).trans (result_context m c),
      ((h c).2 main_v6 (Pipeline.mem_restRefs_of main_v6 (by decide) (by decide))).trans (result_weights m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.AttnValue

end
-- ==== Proof.RefValue.lean ====
/-
  The reference program's two results are the specification's arrays.

  The reference computes, for every batch b, head h and query row q, the masked scores
      s(k) = select (mask(b,h,q,k) ≠ 0) (-10^9) ((∑ d, Q(b,h,q,d) · K(b,h,k,d)) · (1/8)),
  their maximum over k (a fold of max from -infinity, then once more max with -infinity, which changes
  nothing since -infinity is the bottom of the extended reals), the exponentials exp (s(k) - max s), their sum
  over k (from the zero word, which is 0), the quotients w(k) = exp (s(k) - max s) / ∑ k', exp (s(k') - max s),
  and last ctx(d) = ∑ k, w(k) · V(b,h,k,d).  Read at an index (b, h, q, k), resp. (b, h, q, d), each stage is the
  corresponding expression of the specification: the weights are those of the row of scores, the context is
  the weights against the value rows.
-/
import proofs.«120132_j48335561949315_2_alg».proof.Proof.Whole
import proofs.«120132_j48335561949315_2_alg».proof.Proof.Gen.ReferenceIdeal.Read
import Idealize.ShloMosaic.Lib.Pipeline.Value
import Idealize.ShloMosaic.PureOps.Reduce
import Idealize.ShloMosaic.PureOps.Ideal.Laws

noncomputable section
open Idealize.ShloMosaic Idealize.ShloMosaic.ValueIdx Cert.Attn
namespace Cert.Attn.Ref
open Cert.ReferenceIdeal Cert.ReferenceIdeal.Read

variable (x0 x1 x2 : (⟨S2x16x2048x64, .f32⟩ : BufTy).Contents (Elt Ideal))
  (x3 : (⟨S2x16x2048x2048, .i32⟩ : BufTy).Contents (Elt Ideal))

/-! ## The index maps of the stages at an index given by its coordinates -/

theorem lidx0_ix (b : Fin 2) (h : Fin 16) (q k : Fin 2048) (d : Fin 64) :
    lidx_main_v0 (ix4 b h q k) d = ix4 b h q d :=
  funext fun a => Fin.ext (by match a with | ⟨0, _⟩ => rfl | ⟨1, _⟩ => rfl | ⟨2, _⟩ => rfl | ⟨3, _⟩ => rfl)

theorem ridx0_ix (b : Fin 2) (h : Fin 16) (q k : Fin 2048) (d : Fin 64) :
    ridx_main_v0 (ix4 b h q k) d = ix4 b h k d :=
  funext fun a => Fin.ext (by match a with | ⟨0, _⟩ => rfl | ⟨1, _⟩ => rfl | ⟨2, _⟩ => rfl | ⟨3, _⟩ => rfl)

/-- The masked scores of query row q of slice (b, h). -/
def srow (b : Fin 2) (h : Fin 16) (q : Fin 2048) : Fin 2048 → EReal :=
  fun k' => score (qrow4 x0 b h q) (mat4 x1 b h k') (mrow4 x3 b h q k')

/-- The masked, scaled score at (b, h, q, k). -/
theorem v6_ix (b : Fin 2) (h : Fin 16) (q k : Fin 2048) :
    val_main_v6 (F := Ideal) x0 x1 x3 (ix4 b h q k) = srow x0 x1 x3 b h q k := by
  rw [val_main_v6_apply, val_main_v5_apply, val_main_v4_apply, val_main_v3_apply, val_main_c_apply,
    val_main_call0_v1_apply, val_main_call0_v0_apply, val_main_cst_0_apply, val_main_v2_apply,
    val_main_v1_apply, val_main_cst_apply, val_main_v0_apply]
  simp only [lidx0_ix, ridx0_ix, Ideal.mulf_def, Ideal.ofBits_def]
  rfl

/-! ## The row maximum -/

/-- The reduced index (b, h, q) with the coordinate k inserted on the last axis is (b, h, q, k). -/
theorem lift_ix (hr : S2x16x2048x2048.Reduces [3] S2x16x2048) (b : Fin 2) (h : Fin 16) (q k : Fin 2048) :
    hr.lift (ix3 b h q) k = ix4 b h q k :=
  funext fun a => Fin.ext (by match a with | ⟨0, _⟩ => rfl | ⟨1, _⟩ => rfl | ⟨2, _⟩ => rfl | ⟨3, _⟩ => rfl)

/-- The maximum over the last axis, from -infinity, of any array is the row's maximum. -/
theorem reduce_max_ix (y : S2x16x2048x2048.Idx → EReal) (b : Fin 2) (h : Fin 16) (q : Fin 2048) :
    Host.reduce (FloatOps.maximumf (F := Ideal) (φ := .f32)) y (val_main_cst_1 (F := Ideal))
        Gen.reducesTo_S2x16x2048x2048_S2x16x2048_d3 Gen.h_S_ (ix3 b h q)
      = rowMax fun k' => y (ix4 b h q k') := by
  have hr : S2x16x2048x2048.Reduces [3] S2x16x2048 := by decide
  rw [Host.reduce_eq_fold_single (FloatOps.maximumf (F := Ideal) (φ := .f32)) y _
    Gen.reducesTo_S2x16x2048x2048_S2x16x2048_d3 hr Gen.h_S_ (ix3 b h q)]
  have hf : (y ∘ hr.lift (ix3 b h q)) = fun k' : Fin 2048 => y (ix4 b h q k') :=
    funext fun k' => congrArg y (lift_ix hr b h q k')
  rw [hf]
  rfl

theorem v7_ix (b : Fin 2) (h : Fin 16) (q : Fin 2048) :
    val_main_v7 (F := Ideal) x0 x1 x3 (ix3 b h q) = rowMax (srow x0 x1 x3 b h q) := by
  unfold val_main_v7
  rw [reduce_max_ix]
  exact congrArg rowMax (funext fun k' => v6_ix x0 x1 x3 b h q k')

/-- Taking the maximum with -infinity once more changes nothing. -/
theorem v9_ix (b : Fin 2) (h : Fin 16) (q : Fin 2048) :
    val_main_v9 (F := Ideal) x0 x1 x3 (ix3 b h q) = rowMax (srow x0 x1 x3 b h q) := by
  rw [val_main_v9_apply, val_main_v8_apply, val_main_cst_2_apply, v7_ix, Ideal.maximumf_def, Ideal.ofBits_def]
  have hb : Ideal.ofBits .f32 0xFF800000#32 = (⊥ : EReal) := negInf_eq
  rw [hb]
  exact max_eq_right bot_le

/-! ## The exponentials, their sum, and the weights -/

theorem idx10_11_ix (b : Fin 2) (h : Fin 16) (q k : Fin 2048) :
    idx_main_v10 (idx_main_v11 (ix4 b h q k)) = ix3 b h q :=
  funext fun a => Fin.ext (by match a with | ⟨0, _⟩ => rfl | ⟨1, _⟩ => rfl | ⟨2, _⟩ => rfl)

theorem idx15_16_ix (b : Fin 2) (h : Fin 16) (q k : Fin 2048) :
    idx_main_v15 (idx_main_v16 (ix4 b h q k)) = ix3 b h q :=
  funext fun a => Fin.ext (by match a with | ⟨0, _⟩ => rfl | ⟨1, _⟩ => rfl | ⟨2, _⟩ => rfl)

theorem idx14_ix (b : Fin 2) (h : Fin 16) (q k : Fin 2048) :
    idx_main_v14 (ix3 b h q) k = ix4 b h q k :=
  funext fun a => Fin.ext (by match a with | ⟨0, _⟩ => rfl | ⟨1, _⟩ => rfl | ⟨2, _⟩ => rfl | ⟨3, _⟩ => rfl)

/-- The exponential of the score against the row's maximum. -/
theorem v13_ix (b : Fin 2) (h : Fin 16) (q k : Fin 2048) :
    val_main_v13 (F := Ideal) x0 x1 x3 (ix4 b h q k)
      = Ideal.exp (srow x0 x1 x3 b h q k - rowMax (srow x0 x1 x3 b h q)) := by
  rw [val_main_v13_apply, val_main_v12_apply, val_main_v11_apply, val_main_v10_apply, idx10_11_ix, v9_ix, v6_ix,
    Ideal.hostUnary_exp_def, Ideal.subf_def]

/-- The sum of the row's exponentials: the initial word is zero. -/
theorem v14_ix (b : Fin 2) (h : Fin 16) (q : Fin 2048) :
    val_main_v14 (F := Ideal) x0 x1 x3 (ix3 b h q)
      = ∑ k' : Fin 2048, Ideal.exp (srow x0 x1 x3 b h q k' - rowMax (srow x0 x1 x3 b h q)) := by
  rw [val_main_v14_apply, val_main_cst_3_apply, Ideal.ofBits_def, Ideal.ofBits_zero_f32, zero_add]
  exact Finset.sum_congr rfl fun k' _ => by rw [idx14_ix, v13_ix]

/-- The softmax weight at (b, h, q, k). -/
theorem v17_ix (b : Fin 2) (h : Fin 16) (q k : Fin 2048) :
    val_main_v17 (F := Ideal) x0 x1 x3 (ix4 b h q k) = weight (srow x0 x1 x3 b h q) k := by
  rw [val_main_v17_apply, val_main_v16_apply, val_main_v15_apply, idx15_16_ix, v14_ix, v13_ix, Ideal.hostDivf_def]
  rfl

theorem ref_weights (x0 x1 : (⟨S2x16x2048x64, .f32⟩ : BufTy).Contents (Elt Ideal))
    (x3 : (⟨S2x16x2048x2048, .i32⟩ : BufTy).Contents (Elt Ideal)) :
    val_main_v17 (F := Ideal) x0 x1 x3 = weights4 x0 x1 x3 := by
  funext i
  obtain ⟨b, h, q, k, rfl⟩ : ∃ (b : Fin 2) (h : Fin 16) (q k : Fin 2048), i = ix4 b h q k :=
    ⟨i 0, i 1, i 2, i 3, eq_ix4 i⟩
  rw [v17_ix]
  rfl

/-! ## The context -/

theorem lidx18_ix (b : Fin 2) (h : Fin 16) (q : Fin 2048) (d : Fin 64) (k : Fin 2048) :
    lidx_main_v18 (ix4 b h q d) k = ix4 b h q k :=
  funext fun a => Fin.ext (by match a with | ⟨0, _⟩ => rfl | ⟨1, _⟩ => rfl | ⟨2, _⟩ => rfl | ⟨3, _⟩ => rfl)

theorem ridx18_ix (b : Fin 2) (h : Fin 16) (q : Fin 2048) (d : Fin 64) (k : Fin 2048) :
    ridx_main_v18 (ix4 b h q d) k = ix4 b h k d :=
  funext fun a => Fin.ext (by match a with | ⟨0, _⟩ => rfl | ⟨1, _⟩ => rfl | ⟨2, _⟩ => rfl | ⟨3, _⟩ => rfl)

theorem ref_context (x0 x1 x2 : (⟨S2x16x2048x64, .f32⟩ : BufTy).Contents (Elt Ideal))
    (x3 : (⟨S2x16x2048x2048, .i32⟩ : BufTy).Contents (Elt Ideal)) :
    val_main_v18 (F := Ideal) x0 x1 x2 x3 = context4 x0 x1 x2 x3 := by
  funext i
  obtain ⟨b, h, q, d, rfl⟩ : ∃ (b : Fin 2) (h : Fin 16) (q : Fin 2048) (d : Fin 64), i = ix4 b h q d :=
    ⟨i 0, i 1, i 2, i 3, eq_ix4 i⟩
  rw [val_main_v18_apply]
  have hs : ∀ k : Fin 2048,
      val_main_v17 (F := Ideal) x0 x1 x3 (lidx_main_v18 (ix4 b h q d) k) * x2 (ridx_main_v18 (ix4 b h q d) k)
        = weight (srow x0 x1 x3 b h q) k * mat4 x2 b h k d := fun k => by
    rw [lidx18_ix, ridx18_ix, v17_ix]; rfl
  rw [Finset.sum_congr rfl fun k _ => hs k]
  rfl

end Cert.Attn.Ref
end
-- ==== Proof.lean ====
/-
  Masked scaled-dot-product attention: the tiled kernel against the plain reference, on the extended reals.

  Both programs take queries, keys and values of shape [2, 16, 2048, 64] and mask words of shape
  [2, 16, 2048, 2048] and return the context [2, 16, 2048, 64] and the softmax weights [2, 16, 2048, 2048]: for
  each batch, head and query row the scores against the 2048 keys (-10^9 where the mask word is not zero, the
  scaled dot product elsewhere), the softmax of that row taken against its maximum, and the weights against the
  values (Proof/Spec.lean).  The reference computes this with two batched contractions over the four-axis arrays.
  The kernel merges batch and head into 32 slices, walks 8 query tiles of 256 rows per slice, keeps the slice's
  narrowed key and value blocks in two scratch buffers filled at the slice's first tile, scales the query entries
  by 1/8 before the contraction instead of scaling the contracted sum, and splits the leading axis again at the end.

  The two results agree entry by entry on every extended real:
    * the narrowing of a float format is the identity there, and a matrix product into a zero accumulator, a lane
      sum and the host's contraction and sum are the same finite sums;
    * scaling every query entry by 1/8 or scaling the contracted sum is the same score, 1/8 being a nonnegative
      finite number (Spec.lean `kscore_eq_score`); no finiteness of the inputs is used;
    * the reference's second maximum against -infinity changes nothing, -infinity being the least extended real;
    * merging two axes, computing slice by slice and splitting again is computing on the four-axis arrays, since no
      row function looks outside its slice (Layout.lean).
  The kernel side is read off its run: the scratch buffers hold the narrowed blocks of the current slice after every
  point (Carried.lean, by induction on the point), so every written block is the stored payload of the point's own
  blocks (Pieces.lean, Payload.lean, Blocks.lean), the blocks cover the two arrays (Cover.lean), and the reshapes
  before and after the region are re-layings (HostEnds.lean, KernelValue.lean).  The reference side is its run read
  stage by stage (RefValue.lean).  The idealization rewrote nothing, so its soundness conjunct is trivial.
-/
import proofs.«120132_j48335561949315_2_alg».proof.Defs
import proofs.«120132_j48335561949315_2_alg».proof.Proof.Gen.Kernel
import proofs.«120132_j48335561949315_2_alg».proof.Proof.Gen.Kernel.Skeleton
import proofs.«120132_j48335561949315_2_alg».proof.Proof.Gen.Kernel.Launch
import proofs.«120132_j48335561949315_2_alg».proof.Proof.Gen.Kernel.Points
import proofs.«120132_j48335561949315_2_alg».proof.Proof.Gen.Kernel.Frame
import proofs.«120132_j48335561949315_2_alg».proof.Proof.Gen.KernelIdeal
import proofs.«120132_j48335561949315_2_alg».proof.Proof.Gen.KernelIdeal.Skeleton
import proofs.«120132_j48335561949315_2_alg».proof.Proof.Gen.KernelIdeal.Launch
import proofs.«120132_j48335561949315_2_alg».proof.Proof.Gen.KernelIdeal.Points
import proofs.«120132_j48335561949315_2_alg».proof.Proof.Gen.KernelIdeal.Frame
import proofs.«120132_j48335561949315_2_alg».proof.Proof.Gen.ReferenceIdeal
import proofs.«120132_j48335561949315_2_alg».proof.Proof.Gen.ReferenceIdeal.Run
import proofs.«120132_j48335561949315_2_alg».proof.Proof.Gen.ReferenceIdeal.Read
import proofs.«120132_j48335561949315_2_alg».proof.Proof.Gen.Pre_finite_inputs
import proofs.«120132_j48335561949315_2_alg».proof.Proof.KernelValue
import proofs.«120132_j48335561949315_2_alg».proof.Proof.RefValue
import Idealize.ShloMosaic.Adequacy
import Idealize.ShloMosaic.Init

noncomputable section

namespace Cert.Proof

open Idealize.ShloMosaic Idealize.SL.Sem

/-- The kernel as printed runs to the end and leaves its arguments as they were. -/
theorem frame_kernel [Cert.Kernel.Facts] [Cert.Pre_finite_inputs.Facts] : Cert.frame_Kernel :=
  fun m ρ _ => Cert.Kernel.Gen.frame m ρ

/-- So does the kernel read on the extended reals. -/
theorem frame_kernelIdeal [Cert.KernelIdeal.Facts] [Cert.Pre_finite_inputs.Facts] : Cert.frame_KernelIdeal :=
  fun m ρ _ => Cert.KernelIdeal.Gen.frame m ρ

/-- So does the reference: its run, with what it says of the results dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- From memories that agree on the four arguments both programs end with the attention of those arguments: the
    kernel's run read as values, and the reference's run read stage by stage. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, _, Cert.KernelIdeal.AttnValue.run m ρ, ?_⟩
  refine (θ_run Cert.ReferenceIdeal.defs _ _).mono (fun _ h c =>
    ⟨(h c).1.trans ((Cert.ReferenceIdeal.Read.val_main_v18_eq (F := Ideal) _ _ _ _).trans ?_),
      (h c).2.1.trans ((Cert.ReferenceIdeal.Read.val_main_v17_eq (F := Ideal) _ _ _).trans ?_), (h c).2.2⟩)
    (Cert.ReferenceIdeal.Value.run (F := Ideal) m' ρ')
  · rw [Cert.Attn.Ref.ref_context, (hagree c).1, (hagree c).2.1, (hagree c).2.2.1, (hagree c).2.2.2]
  · rw [Cert.Attn.Ref.ref_weights, (hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
